-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥
  ∧ IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1536x512 : Shape := ⟨3, ![64, 1536, 512]⟩
abbrev S5000 : Shape := ⟨1, ![5000]⟩
abbrev S64 : Shape := ⟨1, ![64]⟩
abbrev S64x512 : Shape := ⟨2, ![64, 512]⟩
abbrev S_ : Shape := ⟨0, ![]⟩

class Facts : Prop where
  bcast_S_S64x1536x512 : S_.BroadcastsInDim S64x1536x512 (![] : Fin 0 → Fin S64x1536x512.rank)
  reducesTo_S64x1536x512_S_d0_1_2 : S64x1536x512.ReducesTo [0, 1, 2] S_
  h_S_ : 0 < S_.numel
  bcast_S_S5000 : S_.BroadcastsInDim S5000 (![] : Fin 0 → Fin S5000.rank)
  reducesTo_S5000_S_d0 : S5000.ReducesTo [0] S_

variable [Facts]

def fn {F : FTy → Type} [FloatOps F] (main_arg0 : FVec F S64x1536x512 .f32) (main_arg1 : FVec F S5000 .f32) (main_arg2 : IVec S64 32) (main_arg3 : IVec S64x512 32) : IVec S_ 1 :=
  let main_v0 : FVec F S64x1536x512 .f32 := Host.absf main_arg0
  let main_cst : FVec F S_ .f32 := constant S_ .f32 0x7F800000#32
  let main_v1 : FVec F S64x1536x512 .f32 := broadcastInDim S64x1536x512 ![] bcast_S_S64x1536x512 main_cst
  let main_v2 : IVec S64x1536x512 1 := cmpf .olt main_v0 main_v1
  let main_c : IVec S_ 1 := constantI S_ 1 1#1
  let main_v3 : IVec S_ 1 := (fun x v => Host.reduce IntOp.andi x v reducesTo_S64x1536x512_S_d0_1_2 h_S_) main_v2 main_c
  let main_v4 : FVec F S5000 .f32 := Host.absf main_arg1
  let main_cst_0 : FVec F S_ .f32 := constant S_ .f32 0x7F800000#32
  let main_v5 : FVec F S5000 .f32 := broadcastInDim S5000 ![] bcast_S_S5000 main_cst_0
  let main_v6 : IVec S5000 1 := cmpf .olt main_v4 main_v5
  let main_c_1 : IVec S_ 1 := constantI S_ 1 1#1
  let main_v7 : IVec S_ 1 := (fun x v => Host.reduce IntOp.andi x v reducesTo_S5000_S_d0 h_S_) main_v6 main_c_1
  let main_v8 : IVec S_ 1 := andi main_v3 main_v7
  main_v8
-- ==== Kernel.lean ====
abbrev S64x1536x512 : Shape := ⟨3, ![64, 1536, 512]⟩
abbrev S5000 : Shape := ⟨1, ![5000]⟩
abbrev S64 : Shape := ⟨1, ![64]⟩
abbrev S64x512 : Shape := ⟨2, ![64, 512]⟩
abbrev S64x512x1 : Shape := ⟨3, ![64, 512, 1]⟩
abbrev S_ : Shape := ⟨0, ![]⟩
abbrev S1 : Shape := ⟨1, ![1]⟩
abbrev S1x1x1 : Shape := ⟨3, ![1, 1, 1]⟩
abbrev S64x512x512 : Shape := ⟨3, ![64, 512, 512]⟩
abbrev S64x1x512 : Shape := ⟨3, ![64, 1, 512]⟩
abbrev S64x512x512x1 : Shape := ⟨4, ![64, 512, 512, 1]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S1x1536x512 : Shape := ⟨3, ![1, 1536, 512]⟩
abbrev S1x1x512 : Shape := ⟨3, ![1, 1, 512]⟩
abbrev S1536x512 : Shape := ⟨2, ![1536, 512]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S512x1 : Shape := ⟨2, ![512, 1]⟩

abbrev nBuf : Space → Nat
  | .hbm => 62
  | .vmem => 13
  | .smem => 0
  | _ => 0

abbrev bufTy : (tb : Table) → Fin (tcTables nBuf tb) → BufTy
  | .hbm, ⟨0, _⟩ => ⟨S64x1536x512, .f32⟩
  | .hbm, ⟨1, _⟩ => ⟨S5000, .f32⟩
  | .hbm, ⟨2, _⟩ => ⟨S64, .i32⟩
  | .hbm, ⟨3, _⟩ => ⟨S64x512, .i32⟩
  | .hbm, ⟨4, _⟩ => ⟨S64x512x1, .i32⟩
  | .hbm, ⟨5, _⟩ => ⟨S_, .i32⟩
  | .hbm, ⟨6, _⟩ => ⟨S64x512x1, .i32⟩
  | .hbm, ⟨7, _⟩ => ⟨S64x512x1, .i1⟩
  | .hbm, ⟨8, _⟩ => ⟨S_, .i32⟩
  | .hbm, ⟨9, _⟩ => ⟨S64x512x1, .i32⟩
  | .hbm, ⟨10, _⟩ => ⟨S64x512x1, .i32⟩
  | .hbm, ⟨11, _⟩ => ⟨S64x512x1, .i32⟩
  | .hbm, ⟨12, _⟩ => ⟨S1, .i32⟩
  | .hbm, ⟨13, _⟩ => ⟨S_, .i32⟩
  | .hbm, ⟨14, _⟩ => ⟨S64x512x1, .i32⟩
  | .hbm, ⟨15, _⟩ => ⟨S64x512x1, .i1⟩
  | .hbm, ⟨16, _⟩ => ⟨S1x1x1, .i32⟩
  | .hbm, ⟨17, _⟩ => ⟨S64x512x1, .i32⟩
  | .hbm, ⟨18, _⟩ => ⟨S64x512x1, .i1⟩
  | .hbm, ⟨19, _⟩ => ⟨S64x512x1, .i1⟩
  | .hbm, ⟨20, _⟩ => ⟨S_, .i1⟩
  | .hbm, ⟨21, _⟩ => ⟨S64x512, .i1⟩
  | .hbm, ⟨22, _⟩ => ⟨S64x512x512, .f32⟩
  | .hbm, ⟨23, _⟩ => ⟨S64x512x512, .i1⟩
  | .hbm, ⟨24, _⟩ => ⟨S_, .f32⟩
  | .hbm, ⟨25, _⟩ => ⟨S64x512x512, .f32⟩
  | .hbm, ⟨26, _⟩ => ⟨S64x512x512, .f32⟩
  | .hbm, ⟨27, _⟩ => ⟨S64x1x512, .i32⟩
  | .hbm, ⟨28, _⟩ => ⟨S64x512x1, .i32⟩
  | .hbm, ⟨29, _⟩ => ⟨S64x512x512, .i32⟩
  | .hbm, ⟨30, _⟩ => ⟨S64x512x512, .i32⟩
  | .hbm, ⟨31, _⟩ => ⟨S64x512x512, .i32⟩
  | .hbm, ⟨32, _⟩ => ⟨S64x512x512, .i32⟩
  | .hbm, ⟨33, _⟩ => ⟨S_, .i32⟩
  | .hbm, ⟨34, _⟩ => ⟨S64x512x512, .i32⟩
  | .hbm, ⟨35, _⟩ => ⟨S64x512x512, .i1⟩
  | .hbm, ⟨36, _⟩ => ⟨S_, .i32⟩
  | .hbm, ⟨37, _⟩ => ⟨S64x512x512, .i32⟩
  | .hbm, ⟨38, _⟩ => ⟨S64x512x512, .i32⟩
  | .hbm, ⟨39, _⟩ => ⟨S64x512x512, .i32⟩
  | .hbm, ⟨40, _⟩ => ⟨S64x512x512x1, .i32⟩
  | .hbm, ⟨41, _⟩ => ⟨S64x512x512, .f32⟩
  | .hbm, ⟨42, _⟩ => ⟨S1x64, .i32⟩
  | .hbm, ⟨43, _⟩ => ⟨S64x1, .i32⟩
  | .hbm, ⟨44, _⟩ => ⟨S64x64, .i32⟩
  | .hbm, ⟨45, _⟩ => ⟨S64x64, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i1⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S64x64x1, .i32⟩
  | .hbm, ⟨56, _⟩ => ⟨S64x64, .f32⟩
  | .hbm, ⟨57, _⟩ => ⟨S64x1x512, .f32⟩
  | .hbm, ⟨58, _⟩ => ⟨S64x512, .f32⟩
  | .hbm, ⟨59, _⟩ => ⟨S64x1x512, .f32⟩
  | .hbm, ⟨60, _⟩ => ⟨S64x512, .f32⟩
  | .hbm, ⟨61, _⟩ => ⟨S64, .f32⟩
  | .local _ .vmem, ⟨0, _⟩ => ⟨S1x1536x512, .f32⟩
  | .local _ .vmem, ⟨1, _⟩ => ⟨S1x1536x512, .f32⟩
  | .local _ .vmem, ⟨2, _⟩ => ⟨S1x1x512, .f32⟩
  | .local _ .vmem, ⟨3, _⟩ => ⟨S1x1x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x512, .f32⟩
  | .local _ .vmem, ⟨9, _⟩ => ⟨S1x1x512, .f32⟩
  | .local _ .vmem, ⟨10, _⟩ => ⟨S64x512, .f32⟩
  | .local _ .vmem, ⟨11, _⟩ => ⟨S64x64, .f32⟩
  | .local _ .vmem, ⟨12, _⟩ => ⟨S64, .f32⟩
  | _, _ => ⟨S64x1536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_1 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x512_0_1 : S64x512.BroadcastsInDim S64x512x512 (![0, 1] : Fin 2 → Fin S64x512x512.rank)
  bcast_S_S64x512x512 : S_.BroadcastsInDim S64x512x512 (![] : Fin 0 → Fin S64x512x512.rank)
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  bcast_S64x512x1_S64x512x512_0_1_2 : S64x512x1.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  bcast_S64_S1x64_1 : S64.BroadcastsInDim S1x64 (![1] : Fin 1 → Fin S1x64.rank)
  bcast_S64_S64x1_0 : S64.BroadcastsInDim S64x1 (![0] : Fin 1 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  inb_S1x1536x512_S1x1536x512_0_0_0 : ∀ a, (![0, 0, 0] : Fin 3 → Nat) a + S1x1536x512.size a ≤ S1x1536x512.size a
  h_S1x1536x512 : 0 < S1x1536x512.numel
  shapeCasts_S1x1536x512_S1536x512 : S1x1536x512.ShapeCasts S1536x512
  reduces_S1536x512_S512 : S1536x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S64x1x512_S64x512 : S64x1x512.ShapeCasts S64x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  reduces_S512x512_S512 : S512x512.Reduces [0] S512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512_2 : S512x512.Reduces [1] S512
  shapeCasts_S512_S512x1 : S512.ShapeCasts S512x1
  broadcasts_S512x1_S512x512 : S512x1.Broadcasts S512x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S64x64_S64 : S64x64.Reduces [1] S64
  shapeCasts_S64_S64x1 : S64.ShapeCasts S64x1
  broadcasts_S64x1_S64x64 : S64x1.Broadcasts S64x64
  iota_S64x64_d0_w32 : S64x64.Iotas .tc 32 [0]
  iota_S64x64_d1_w32 : S64x64.Iotas .tc 32 [1]
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  gather_S64x1536x512_S64x512x1_S64x512x512_2_1_0_0_1_2_11512_wf : GatherDims.WF S64x1536x512 S64x512x1 S64x512x512 [2] [1] [0] [1] [0] 2 ![1, 1, 512]
  gather_S5000_S64x512x512x1_S64x512x512_n_0_n_n_0_3_1_wf : GatherDims.WF S5000 S64x512x512x1 S64x512x512 [] [0] [] [0] [] 3 ![1]
  gather_S5000_S64x64x1_S64x64_n_0_n_n_0_2_1_wf : GatherDims.WF S5000 S64x64x1 S64x64 [] [0] [] [0] [] 2 ![1]
  dot_S512x512_S512x512_S512x512_1_1_0_0_n_n_wf : DotDims.WF S512x512 S512x512 S512x512 [1] [1] [0] [0] [] []
  dot_S64x512_S64x512_S64x64_1_1_0_0_n_n_wf : DotDims.WF S64x512 S64x512 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1536x512.size a ≤ S64x1536x512.size a
  hwx0_0 : ∀ i : grid0.Coords, EltTy.bits .f32 = 32 ∨ (Rect.block (s := S64x1536x512) S1x1536x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S64x512x512.size a
  hwx1_0 : ∀ i : grid1.Coords, EltTy.bits .f32 = 32 ∨ (Rect.block (s := S64x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S64x512x512.size a
  hwx1_1 : ∀ i : grid1.Coords, EltTy.bits .f32 = 32 ∨ (Rect.block (s := S64x512x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S64x1x512.size a
  hwx1_2 : ∀ i : grid1.Coords, EltTy.bits .f32 = 32 ∨ (Rect.block (s := S64x1x512) S1x1x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .f32 = 32 ∨ (Rect.block (s := S64x512) S64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)

variable [Facts₀]

def gather_S64x1536x512_S64x512x1_S64x512x512_2_1_0_0_1_2_11512 : GatherDims S64x1536x512 S64x512x1 S64x512x512 where
  offsetDims := [2]
  collapsedSliceDims := [1]
  operandBatchingDims := [0]
  startIndicesBatchingDims := [0]
  startIndexMap := [1]
  indexVectorDim := 2
  sliceSizes := ![1, 1, 512]
  wf := gather_S64x1536x512_S64x512x1_S64x512x512_2_1_0_0_1_2_11512_wf
def gather_S5000_S64x512x512x1_S64x512x512_n_0_n_n_0_3_1 : GatherDims S5000 S64x512x512x1 S64x512x512 where
  offsetDims := []
  collapsedSliceDims := [0]
  operandBatchingDims := []
  startIndicesBatchingDims := []
  startIndexMap := [0]
  indexVectorDim := 3
  sliceSizes := ![1]
  wf := gather_S5000_S64x512x512x1_S64x512x512_n_0_n_n_0_3_1_wf
def gather_S5000_S64x64x1_S64x64_n_0_n_n_0_2_1 : GatherDims S5000 S64x64x1 S64x64 where
  offsetDims := []
  collapsedSliceDims := [0]
  operandBatchingDims := []
  startIndicesBatchingDims := []
  startIndexMap := [0]
  indexVectorDim := 2
  sliceSizes := ![1]
  wf := gather_S5000_S64x64x1_S64x64_n_0_n_n_0_2_1_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S64x512_S64x512_S64x64_1_1_0_0_n_n : DotDims S64x512 S64x512 S64x64 where
  lhsContracting := [1]
  rhsContracting := [1]
  lhsNonContracting := [0]
  rhsNonContracting := [0]
  lhsBatch := []
  rhsBatch := []
  wf := dot_S64x512_S64x512_S64x64_1_1_0_0_n_n_wf

abbrev win0_0 : Pipeline.Window sig grid0 :=
  Pipeline.Window.ofSpec (Memref.whole main_arg0) S1x1536x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S64x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v27) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x1536x512 : Shape := ⟨3, ![64, 1536, 512]⟩
abbrev S5000 : Shape := ⟨1, ![5000]⟩
abbrev S64 : Shape := ⟨1, ![64]⟩
abbrev S64x512 : Shape := ⟨2, ![64, 512]⟩
abbrev S64x512x1 : Shape := ⟨3, ![64, 512, 1]⟩
abbrev S_ : Shape := ⟨0, ![]⟩
abbrev S1 : Shape := ⟨1, ![1]⟩
abbrev S1x1x1 : Shape := ⟨3, ![1, 1, 1]⟩
abbrev S64x512x512 : Shape := ⟨3, ![64, 512, 512]⟩
abbrev S64x1x512 : Shape := ⟨3, ![64, 1, 512]⟩
abbrev S64x512x512x1 : Shape := ⟨4, ![64, 512, 512, 1]⟩
abbrev S512x512 : Shape := ⟨2, ![512, 512]⟩
abbrev S1x512x512 : Shape := ⟨3, ![1, 512, 512]⟩
abbrev S512x64 : Shape := ⟨2, ![512, 64]⟩
abbrev S64x64 : Shape := ⟨2, ![64, 64]⟩
abbrev S64x1 : Shape := ⟨2, ![64, 1]⟩
abbrev S1x64 : Shape := ⟨2, ![1, 64]⟩
abbrev S64x64x1 : Shape := ⟨3, ![64, 64, 1]⟩

abbrev nBuf : Space → Nat
  | .hbm => 170
  | .vmem => 0
  | .smem => 0
  | _ => 0

abbrev hbmTy0_0 (i : Nat) : BufTy := match i % 128 with
  | 0 => ⟨S64x1536x512, .f32⟩
  | 1 => ⟨S5000, .f32⟩
  | 2 => ⟨S64, .i32⟩
  | 3 => ⟨S64x512, .i32⟩
  | 4 => ⟨S64x512x1, .i32⟩
  | 5 => ⟨S_, .i32⟩
  | 6 => ⟨S64x512x1, .i32⟩
  | 7 => ⟨S64x512x1, .i1⟩
  | 8 => ⟨S_, .i32⟩
  | 9 => ⟨S64x512x1, .i32⟩
  | 10 => ⟨S64x512x1, .i32⟩
  | 11 => ⟨S64x512x1, .i32⟩
  | 12 => ⟨S1, .i32⟩
  | 13 => ⟨S_, .i32⟩
  | 14 => ⟨S64x512x1, .i32⟩
  | 15 => ⟨S64x512x1, .i1⟩
  | 16 => ⟨S1x1x1, .i32⟩
  | 17 => ⟨S64x512x1, .i32⟩
  | 18 => ⟨S64x512x1, .i1⟩
  | 19 => ⟨S64x512x1, .i1⟩
  | 20 => ⟨S_, .i1⟩
  | 21 => ⟨S64x512, .i1⟩
  | 22 => ⟨S64x512x512, .f32⟩
  | 23 => ⟨S64x512x512, .i1⟩
  | 24 => ⟨S_, .f32⟩
  | 25 => ⟨S64x512x512, .f32⟩
  | 26 => ⟨S64x512x512, .f32⟩
  | 27 => ⟨S64x512x512, .f32⟩
  | 28 => ⟨S_, .f32⟩
  | 29 => ⟨S64x512x512, .f32⟩
  | 30 => ⟨S64x512x512, .f32⟩
  | 31 => ⟨S_, .f32⟩
  | 32 => ⟨S64x512, .f32⟩
  | 33 => ⟨S64x1x512, .f32⟩
  | 34 => ⟨S64x512x512, .f32⟩
  | 35 => ⟨S64x512x512, .f32⟩
  | 36 => ⟨S64x1x512, .i32⟩
  | 37 => ⟨S64x512x1, .i32⟩
  | 38 => ⟨S64x512x512, .i32⟩
  | 39 => ⟨S64x512x512, .i32⟩
  | 40 => ⟨S64x512x512, .i32⟩
  | 41 => ⟨S64x512x512, .i32⟩
  | 42 => ⟨S_, .i32⟩
  | 43 => ⟨S64x512x512, .i32⟩
  | 44 => ⟨S64x512x512, .i1⟩
  | 45 => ⟨S_, .i32⟩
  | 46 => ⟨S64x512x512, .i32⟩
  | 47 => ⟨S64x512x512, .i32⟩
  | 48 => ⟨S64x512x512, .i32⟩
  | 49 => ⟨S64x512x512x1, .i32⟩
  | 50 => ⟨S64x512x512, .f32⟩
  | 51 => ⟨S512x512, .i32⟩
  | 52 => ⟨S512x512, .i32⟩
  | 53 => ⟨S_, .i32⟩
  | 54 => ⟨S512x512, .i32⟩
  | 55 => ⟨S512x512, .i32⟩
  | 56 => ⟨S512x512, .i1⟩
  | 57 => ⟨S512x512, .f32⟩
  | 58 => ⟨S_, .f32⟩
  | 59 => ⟨S512x512, .f32⟩
  | 60 => ⟨S512x512, .f32⟩
  | 61 => ⟨S_, .f32⟩
  | 62 => ⟨S64x512x512, .f32⟩
  | 63 => ⟨S64x512x512, .i1⟩
  | 64 => ⟨S_, .f32⟩
  | 65 => ⟨S_, .f32⟩
  | 66 => ⟨S64x512x512, .f32⟩
  | 67 => ⟨S64x512x512, .f32⟩
  | 68 => ⟨S_, .f32⟩
  | 69 => ⟨S64x512, .f32⟩
  | 70 => ⟨S64x512x1, .f32⟩
  | 71 => ⟨S64x512x512, .f32⟩
  | 72 => ⟨S64x512x512, .i1⟩
  | 73 => ⟨S64x512x512, .f32⟩
  | 74 => ⟨S64x512x512, .f32⟩
  | 75 => ⟨S1x512x512, .f32⟩
  | 76 => ⟨S64x512x512, .f32⟩
  | 77 => ⟨S64x512x512, .f32⟩
  | 78 => ⟨S64x512x512, .f32⟩
  | 79 => ⟨S64x512x512, .f32⟩
  | 80 => ⟨S1x512x512, .f32⟩
  | 81 => ⟨S64x512x512, .f32⟩
  | 82 => ⟨S64x512x512, .f32⟩
  | 83 => ⟨S_, .f32⟩
  | 84 => ⟨S64x512, .f32⟩
  | 85 => ⟨S64x512x1, .f32⟩
  | 86 => ⟨S64x512x1, .f32⟩
  | 87 => ⟨S64x512x512, .f32⟩
  | 88 => ⟨S64x512x512, .f32⟩
  | 89 => ⟨S64x512x512, .f32⟩
  | 90 => ⟨S64x512x512, .f32⟩
  | 91 => ⟨S_, .f32⟩
  | 92 => ⟨S64x512, .f32⟩
  | 93 => ⟨S_, .f32⟩
  | 94 => ⟨S64x512, .f32⟩
  | 95 => ⟨S64x512, .f32⟩
  | 96 => ⟨S_, .f32⟩
  | 97 => ⟨S64x512, .f32⟩
  | 98 => ⟨S64x512, .f32⟩
  | 99 => ⟨S_, .f32⟩
  | 100 => ⟨S64x512, .f32⟩
  | 101 => ⟨S512x64, .f32⟩
  | 102 => ⟨S64x64, .f32⟩
  | 103 => ⟨S_, .f32⟩
  | 104 => ⟨S64x64, .f32⟩
  | 105 => ⟨S64x64, .f32⟩
  | 106 => ⟨S_, .f32⟩
  | 107 => ⟨S64, .f32⟩
  | 108 => ⟨S64x1, .f32⟩
  | 109 => ⟨S64x64, .f32⟩
  | 110 => ⟨S64x64, .f32⟩
  | 111 => ⟨S1x64, .i32⟩
  | 112 => ⟨S64x1, .i32⟩
  | 113 => ⟨S64x64, .i32⟩
  | 114 => ⟨S64x64, .i32⟩
  | 115 => ⟨S64x64, .i32⟩
  | 116 => ⟨S64x64, .i32⟩
  | 117 => ⟨S_, .i32⟩
  | 118 => ⟨S64x64, .i32⟩
  | 119 => ⟨S64x64, .i1⟩
  | 120 => ⟨S_, .i32⟩
  | 121 => ⟨S64x64, .i32⟩
  | 122 => ⟨S64x64, .i32⟩
  | 123 => ⟨S64x64, .i32⟩
  | 124 => ⟨S64x64x1, .i32⟩
  | 125 => ⟨S64x64, .f32⟩
  | 126 => ⟨S64x64, .i32⟩
  | 127 => ⟨S64x64, .i32⟩
  | _ => ⟨S64x1536x512, .f32⟩

abbrev hbmTy0_1 (i : Nat) : BufTy := match i % 128 with
  | 0 => ⟨S_, .i32⟩
  | 1 => ⟨S64x64, .i32⟩
  | 2 => ⟨S64x64, .i32⟩
  | 3 => ⟨S64x64, .i1⟩
  | 4 => ⟨S64x64, .f32⟩
  | 5 => ⟨S_, .f32⟩
  | 6 => ⟨S64x64, .f32⟩
  | 7 => ⟨S64x64, .f32⟩
  | 8 => ⟨S_, .f32⟩
  | 9 => ⟨S64x64, .f32⟩
  | 10 => ⟨S64x64, .i1⟩
  | 11 => ⟨S_, .f32⟩
  | 12 => ⟨S_, .f32⟩
  | 13 => ⟨S64x64, .f32⟩
  | 14 => ⟨S64x64, .f32⟩
  | 15 => ⟨S_, .f32⟩
  | 16 => ⟨S64, .f32⟩
  | 17 => ⟨S64x1, .f32⟩
  | 18 => ⟨S64x64, .f32⟩
  | 19 => ⟨S64x64, .i1⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64, .f32⟩
  | 28 => ⟨S64x1, .f32⟩
  | 29 => ⟨S64x1, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | _ => ⟨S64x1536x512, .f32⟩

abbrev hbmTy (i : Nat) : BufTy := match i / 128 with
  | 0 => hbmTy0_0 i
  | 1 => hbmTy0_1 i
  | _ => ⟨S64x1536x512, .f32⟩

abbrev bufTy : (tb : Table) → Fin (tcTables nBuf tb) → BufTy
  | .hbm, ⟨i, _⟩ => hbmTy i
  | _, _ => ⟨S64x1536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_14 : Ref sig .tc := ⟨.hbm, 117, rfl⟩
abbrev main_v74 : Ref sig .tc := ⟨.hbm, 118, rfl⟩
abbrev main_v75 : Ref sig .tc := ⟨.hbm, 119, rfl⟩
abbrev main_c_15 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_16 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_v88 : Ref sig .tc := ⟨.hbm, 135, rfl⟩
abbrev main_cst_18 : Ref sig .tc := ⟨.hbm, 136, rfl⟩
abbrev main_v89 : Ref sig .tc := ⟨.hbm, 137, rfl⟩
abbrev main_v90 : Ref sig .tc := ⟨.hbm, 138, rfl⟩
abbrev main_cst_19 : Ref sig .tc := ⟨.hbm, 139, rfl⟩
abbrev main_call2_v0 : Ref sig .tc := ⟨.hbm, 140, rfl⟩
abbrev main_call2_v1 : Ref sig .tc := ⟨.hbm, 141, rfl⟩
abbrev main_v91 : Ref sig .tc := ⟨.hbm, 142, rfl⟩
abbrev main_cst_20 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_21 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_22 : Ref sig .tc := ⟨.hbm, 162, rfl⟩
abbrev main_v109 : Ref sig .tc := ⟨.hbm, 163, rfl⟩
abbrev main_cst_23 : Ref sig .tc := ⟨.hbm, 164, rfl⟩
abbrev main_v110 : Ref sig .tc := ⟨.hbm, 165, rfl⟩
abbrev main_v111 : Ref sig .tc := ⟨.hbm, 166, rfl⟩
abbrev main_cst_24 : Ref sig .tc := ⟨.hbm, 167, rfl⟩
abbrev main_v112 : Ref sig .tc := ⟨.hbm, 168, rfl⟩
abbrev main_v113 : Ref sig .tc := ⟨.hbm, 169, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x512_0_1 : S64x512.BroadcastsInDim S64x512x512 (![0, 1] : Fin 2 → Fin S64x512x512.rank)
  bcast_S_S64x512x512 : S_.BroadcastsInDim S64x512x512 (![] : Fin 0 → Fin S64x512x512.rank)
  reducesTo_S64x512x512_S64x512_d1 : S64x512x512.ReducesTo [1] S64x512
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  bcast_S64x512x1_S64x512x512_0_1_2 : S64x512x1.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  bcast_S_S512x512 : S_.BroadcastsInDim S512x512 (![] : Fin 0 → Fin S512x512.rank)
  reducesTo_S64x512x512_S64x512_d2 : S64x512x512.ReducesTo [2] S64x512
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S_S64x512 : S_.BroadcastsInDim S64x512 (![] : Fin 0 → Fin S64x512.rank)
  reducesTo_S64x1536x512_S64x512_d1 : S64x1536x512.ReducesTo [1] S64x512
  transposes_S64x512_S512x64_1_0 : S64x512.Transposes [1, 0] S512x64
  bcast_S_S64x64 : S_.BroadcastsInDim S64x64 (![] : Fin 0 → Fin S64x64.rank)
  reducesTo_S64x64_S64_d1 : S64x64.ReducesTo [1] S64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S64x64_S64x64x1_0_1 : S64x64.BroadcastsInDim S64x64x1 (![0, 1] : Fin 2 → Fin S64x64x1.rank)
  bcast_S_S64 : S_.BroadcastsInDim S64 (![] : Fin 0 → Fin S64.rank)
  gather_S64x1536x512_S64x512x1_S64x512x512_2_1_0_0_1_2_11512_wf : GatherDims.WF S64x1536x512 S64x512x1 S64x512x512 [2] [1] [0] [1] [0] 2 ![1, 1, 512]
  dot_S64x512x512_S64x512x512_S64x512x512_2_2_1_1_0_0_wf : DotDims.WF S64x512x512 S64x512x512 S64x512x512 [2] [2] [1] [1] [0] [0]
  gather_S5000_S64x512x512x1_S64x512x512_n_0_n_n_0_3_1_wf : GatherDims.WF S5000 S64x512x512x1 S64x512x512 [] [0] [] [0] [] 3 ![1]
  dot_S64x512_S512x64_S64x64_1_0_0_1_n_n_wf : DotDims.WF S64x512 S512x64 S64x64 [1] [0] [0] [1] [] []
  gather_S5000_S64x64x1_S64x64_n_0_n_n_0_2_1_wf : GatherDims.WF S5000 S64x64x1 S64x64 [] [0] [] [0] [] 2 ![1]

variable [Facts₀]

def gather_S64x1536x512_S64x512x1_S64x512x512_2_1_0_0_1_2_11512 : GatherDims S64x1536x512 S64x512x1 S64x512x512 where
  offsetDims := [2]
  collapsedSliceDims := [1]
  operandBatchingDims := [0]
  startIndicesBatchingDims := [0]
  startIndexMap := [1]
  indexVectorDim := 2
  sliceSizes := ![1, 1, 512]
  wf := gather_S64x1536x512_S64x512x1_S64x512x512_2_1_0_0_1_2_11512_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def gather_S5000_S64x512x512x1_S64x512x512_n_0_n_n_0_3_1 : GatherDims S5000 S64x512x512x1 S64x512x512 where
  offsetDims := []
  collapsedSliceDims := [0]
  operandBatchingDims := []
  startIndicesBatchingDims := []
  startIndexMap := [0]
  indexVectorDim := 3
  sliceSizes := ![1]
  wf := gather_S5000_S64x512x512x1_S64x512x512_n_0_n_n_0_3_1_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def gather_S5000_S64x64x1_S64x64_n_0_n_n_0_2_1 : GatherDims S5000 S64x64x1 S64x64 where
  offsetDims := []
  collapsedSliceDims := [0]
  operandBatchingDims := []
  startIndicesBatchingDims := []
  startIndexMap := [0]
  indexVectorDim := 2
  sliceSizes := ![1]
  wf := gather_S5000_S64x64x1_S64x64_n_0_n_n_0_2_1_wf

class Facts : Prop extends Facts₀ where

variable [Facts]
-- ==== Proof.KernelRun.lean ====
/-
  The idealized kernel program's run, read at EVERY buffer: from any memory with zero counters every weakly fair
  execution of @main terminates, and in the final state each unscoped buffer of a TensorCore holds the contents the
  fold through @main's segments gives it after the third region (`Gen.W8`). The frame certificate reads only the four
  argument arrays off that final state; a value claim reads the two result arrays, so the same launch is stated here
  with the reading left to the caller.
-/
import proofs.«142398_j2241972929072_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, and any property of the final memory that follows
    from "each unscoped TensorCore buffer holds its contents after the last region" holds of it. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

end Cert.KernelIdeal.KRun

end
-- ==== Proof.Spec.lean ====
/-
  The contrastive loss both programs compute, as one function of a block of feature rows x (n rows of d entries) and an
  n × n table D of autocorrelation values, on the extended reals.

  logits        L i j = (∑ k, x i k · x j k) · (1 / τ), τ the temperature (the binary value of 0.07 in single precision);
  shifted       Z i j = L i j − (the maximum of L over one axis: over the rows i′ of column j in the local loss, over the
                columns j′ of row i in the global loss);
  masks         off-diagonal o i j = 1 − [i = j]; self s i j = [D i j = 1]; the table with its self entries at −∞,
                M i j; positives p i j = [M i j = max over j′ of M i j′] + o i j · s i j;
  log-prob      Z i j − log (∑ j′, exp (Z i j′) · o i j′);
  loss at row i −1 · ( (∑ j, D i j · p i j · logprob i j) / (∑ j, p i j) ).

  A truth value is an i1 word and is read as the number 0 or 1. The sums are the exact sums, the maxima folds of max from −∞,
  the quotient the extended reals' (its corners at 0 and ±∞ are those of the shared division).
-/
import Idealize.ShloMosaic.PureOps.Ideal.Laws
import Idealize.ShloMosaic.Lib.ValueIdx

noncomputable section

open scoped BigOperators

namespace Cert.Contrast

open Idealize.ShloMosaic

variable {n d : ℕ}

/-- 1 / τ for τ the single-precision value of 0.07, that is 9395241 / 2²⁷. -/
def invTemp : EReal := ((134217728 / 9395241 : ℝ) : EReal)

/-- The single-precision pattern of 1.0 and of −1.0 (never evaluated: both programs carry the same words). -/
def one : EReal := Ideal.ofBits .f32 0x3F800000#32
def negOne : EReal := Ideal.ofBits .f32 0xBF800000#32

/-- An i1 word read as 0 or 1. -/
def ind (b : BitVec 1) : EReal := ((b.toNat : ℝ) : EReal)

/-- The maximum of finitely many extended reals, from −∞. -/
def fmax {m : ℕ} (f : Fin m → EReal) : EReal := (Finset.univ : Finset (Fin m)).fold max ⊥ f

def gram (x : Fin n → Fin d → EReal) (i j : Fin n) : EReal := ∑ k : Fin d, x i k * x j k

def logit (x : Fin n → Fin d → EReal) (i j : Fin n) : EReal := gram x i j * invTemp

/-- The logits less their column maximum (the local loss normalises over the first axis). -/
def shiftCols (L : Fin n → Fin n → EReal) (i j : Fin n) : EReal := L i j - fmax (fun i' => L i' j)

/-- The logits less their row maximum (the global loss normalises over the second axis). -/
def shiftRows (L : Fin n → Fin n → EReal) (i j : Fin n) : EReal := L i j - fmax (fun j' => L i j')

/-- [i = j] as an i1 word: the comparison of the two coordinates as 32-bit integers. -/
def eyeBit (i j : Fin n) : BitVec 1 := IntOp.cmpi .eq (BitVec.ofNat 32 i.val) (BitVec.ofNat 32 j.val)

def offDiag (i j : Fin n) : EReal := one - ind (eyeBit i j)

def selfBit (D : Fin n → Fin n → EReal) (i j : Fin n) : BitVec 1 := Ideal.cmp .oeq (D i j) one

def masked (D : Fin n → Fin n → EReal) (i j : Fin n) : EReal := Scalar.select (selfBit D i j) ⊥ (D i j)

def posMask (D : Fin n → Fin n → EReal) (i j : Fin n) : EReal :=
  ind (Ideal.cmp .oeq (masked D i j) (fmax (fun j' => masked D i j'))) + offDiag i j * ind (selfBit D i j)

def logProb (Z : Fin n → Fin n → EReal) (i j : Fin n) : EReal :=
  Z i j - Ideal.log (∑ j' : Fin n, Ideal.exp (Z i j') * offDiag i j')

def loss (Z D : Fin n → Fin n → EReal) (i : Fin n) : EReal :=
  negOne * Ideal.div (∑ j : Fin n, D i j * posMask D i j * logProb Z i j) (∑ j : Fin n, posMask D i j)

def localLoss (x : Fin n → Fin d → EReal) (D : Fin n → Fin n → EReal) (i : Fin n) : EReal :=
  loss (shiftCols (logit x)) D i

def globalLoss (x : Fin n → Fin d → EReal) (D : Fin n → Fin n → EReal) (i : Fin n) : EReal :=
  loss (shiftRows (logit x)) D i

/-! ## The words both programs carry, read once -/

/-- The pattern of −∞ denotes −∞. -/
theorem ofBits_negInf : Ideal.ofBits .f32 0xFF800000#32 = ⊥ := by
  simp [Ideal.ofBits, Ideal.ieee]

/-- The reference's temperature word denotes 9395241 / 2²⁷. -/
theorem ofBits_temp : Ideal.ofBits .f32 0x3D8F5C29#32 = ((9395241 / 134217728 : ℝ) : EReal) := by
  simp [Ideal.ofBits, Ideal.ieee, -EReal.coe_mul]; norm_num

/-- Dividing by the temperature is multiplying by its reciprocal, on every extended real. -/
theorem div_temp (x : EReal) : Ideal.div x (Ideal.ofBits .f32 0x3D8F5C29#32) = x * invTemp := by
  rw [ofBits_temp, Ideal.div_coe (by norm_num : (9395241 / 134217728 : ℝ) ≠ 0)]
  unfold invTemp
  norm_num

/-- A truth value widened to 32 bits and read as a signed integer is the same 0 or 1. -/
theorem ind_setWidth (b : BitVec 1) : (((b.setWidth 32).toInt : ℝ) : EReal) = ind b := by
  have h : ∀ b : BitVec 1, (b.setWidth 32).toInt = (b.toNat : ℤ) := by decide
  unfold ind
  rw [h b]
  norm_cast

end Cert.Contrast

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.KPool.lean ====
/-
  The pooling kernel's body, read at an index on the extended reals: it loads one batch's 1536 × 512 block of features and
  stores, at feature k, the maximum over the 1536 sequence positions of the block's entries at k (from −∞).
-/
import proofs.«142398_j2241972929072_2_alg».proof.Proof.Gen.KernelIdeal.Skeleton
import proofs.«142398_j2241972929072_2_alg».proof.Proof.Spec
import proofs.«142398_j2241972929072_2_alg».proof.Proof.LibGram
import Idealize.ShloMosaic.Lib.ValueLayout
import Idealize.ShloMosaic.Lib.Pipeline.Value

noncomputable section

namespace Cert.KernelIdeal.KPool

open Cert.KernelIdeal Cert.KernelIdeal.Gen Idealize.ShloMosaic Idealize.ShloMosaic.ValueIdx Cert.Contrast

theorem pay_eq (X0 : Vec Ideal S1x1536x512 .f32) : k0_pay1 (F := Ideal) X0
    = shapeCast S1x1x512 (shapeCast S1x512 (multiReduction .maximumf [0] S512 (shapeCast S1536x512 X0 shapeCasts_S1x1536x512_S1536x512)
        0xFF800000#32 reduces_S1536x512_S512 (.inl rfl) rfl) shapeCasts_S512_S1x512) shapeCasts_S1x512_S1x1x512 := rfl

/-- The stored block at (0, 0, k) is the maximum of the loaded block's column k. -/
theorem pool_apply (X0 : Vec Ideal S1x1536x512 .f32) (k : Fin 512) :
    k0_pay1 (F := Ideal) X0 (ix3 (0 : Fin 1) (0 : Fin 1) k) = fmax (fun r : Fin 1536 => X0 (ix3 (0 : Fin 1) r k)) := by
  rw [pay_eq, shapeCast_ab_1ab_apply, shapeCast_a_1a_apply]
  refine (Gram.multiReduction_max_cols_apply _ 0xFF800000#32 reduces_S1536x512_S512 (.inl rfl) rfl k).trans ?_
  rw [ofBits_negInf]
  unfold fmax
  exact Finset.fold_congr fun r _ => shapeCast_1ab_ab_apply X0 _ r k

end Cert.KernelIdeal.KPool

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KLocal.lean ====
/-
  The local loss kernel's body, read at an index on the extended reals.

  The body loads one batch's block of selected feature rows (512 rows of 512 entries) and that batch's 512 × 512 table of
  autocorrelation values, and stores 512 numbers. Its arithmetic is pointwise but for one matrix product (the rows against
  themselves, contracted over the features), one column maximum of the scaled logits, one row maximum of the masked table
  and three row sums; each of those is read here at an index, and the stored number at position a is the contrastive
  loss of row a with the logits normalised over the first axis.
-/
import proofs.«142398_j2241972929072_2_alg».proof.Proof.Gen.KernelIdeal.Skeleton
import proofs.«142398_j2241972929072_2_alg».proof.Proof.Spec
import proofs.«142398_j2241972929072_2_alg».proof.Proof.LibGram
import proofs.«142398_j2241972929072_2_alg».proof.Proof.LibColumn
import proofs.«142398_j2241972929072_2_alg».proof.Proof.LibRowSum
import Idealize.ShloMosaic.Lib.ValueLayout
import Idealize.ShloMosaic.Lib.Pipeline.Value
import Idealize.ShloMosaic.PureOps.IdealRules

noncomputable section

open scoped BigOperators

namespace Cert.KernelIdeal.KLocal

open Cert.KernelIdeal Cert.KernelIdeal.Gen Idealize.ShloMosaic Idealize.ShloMosaic.ValueIdx Cert.Contrast

/-- The kernel's scale is named 1 / τ, and its mask fill −∞. -/
theorem invTemp_named : Named.named (F := Ideal) κ "inv_temp" (φ := .f32) 0x41649249#32 = invTemp :=
  IdealRules.named_const.ideal_named_scalar _ _ _ _ rfl

theorem negBig_named : Named.named (F := Ideal) κ "neg_big" (φ := .f32) 0xFF333332#32 = (⊥ : EReal) :=
  IdealRules.named_const.ideal_named_scalar _ _ _ _ rfl

theorem exp_apply {s : Shape} (x : FVec Ideal s .f32) (i : s.Idx) : exp x i = Ideal.exp (x i) := rfl
theorem log_apply {s : Shape} (x : FVec Ideal s .f32) (i : s.Idx) : log x i = Ideal.log (x i) := rfl
theorem cmpf_ideal (p : CmpFPredicate) (x y : EReal) : FloatOps.cmpf (F := Ideal) (φ := .f32) p x y = Ideal.cmp p x y := rfl
theorem sitofp_ideal {w : ℕ} (b : BitVec w) : FloatOps.sitofp (F := Ideal) .f32 b = (((b.toInt : ℝ)) : EReal) := rfl

/-! ## The reductions and re-laid pieces, each read at an index -/

/-- The column maxima, laid back over the matrix as a row repeated down the rows. -/
theorem colMax_apply (v : FVec Ideal S512x512 .f32) (hφ : FTy.f32 = FTy.f32 ∨ FTy.f32 = FTy.bf16) (hacc : (0xFF800000#32 : BitVec 32) = 0xFF800000#32) (a b : Fin 512) :
    broadcastTo S512x512 (shapeCast S1x512 (multiReduction .maximumf [0] S512 v 0xFF800000#32 reduces_S512x512_S512 hφ hacc)
      shapeCasts_S512_S1x512) broadcasts_S1x512_S512x512 (ix2 a b) = fmax (fun r => v (ix2 r b)) := by
  rw [broadcastTo_1b_ab_apply, shapeCast_a_1a_apply]
  refine (Gram.multiReduction_max_cols_apply v 0xFF800000#32 reduces_S512x512_S512 hφ hacc b).trans ?_
  rw [ofBits_negInf]
  rfl

/-- The row maxima, laid back over the matrix as a column repeated along the rows. -/
theorem rowMax_apply (v : FVec Ideal S512x512 .f32) (hφ : FTy.f32 = FTy.f32 ∨ FTy.f32 = FTy.bf16) (hacc : (0xFF800000#32 : BitVec 32) = 0xFF800000#32) (a b : Fin 512) :
    broadcastTo S512x512 (shapeCast S512x1 (multiReduction .maximumf [1] S512 v 0xFF800000#32 reduces_S512x512_S512_2 hφ hacc)
      shapeCasts_S512_S512x1) broadcasts_S512x1_S512x512 (ix2 a b) = fmax (fun c => v (ix2 a c)) := by
  rw [broadcastTo_a1_ab_apply, shapeCast_a_a1_apply]
  refine (Gram.multiReduction_max_rows_apply v 0xFF800000#32 reduces_S512x512_S512_2 hφ hacc a).trans ?_
  rw [ofBits_negInf]
  rfl

/-- A row sum. -/
theorem rowSum_apply (v : FVec Ideal S512x512 .f32) (hφ : FTy.f32 = FTy.f32 ∨ FTy.f32 = FTy.bf16) (hacc : (0x00000000#32 : BitVec 32) = 0x00000000#32) (a : Fin 512) :
    multiReduction .add [1] S512 v 0x00000000#32 reduces_S512x512_S512_2 hφ hacc (ix1 a) = ∑ c : Fin 512, v (ix2 a c) :=
  multiReduction_add_rows_apply v reduces_S512x512_S512_2 hφ hacc a

/-- The logarithm of a column of row sums, laid back along the rows. -/
theorem logCol_apply (w : FVec Ideal S512 .f32) (a b : Fin 512) :
    broadcastTo S512x512 (log (shapeCast S512x1 w shapeCasts_S512_S512x1)) broadcasts_S512x1_S512x512 (ix2 a b)
      = Ideal.log (w (ix1 a)) := by
  rw [broadcastTo_a1_ab_apply, log_apply, shapeCast_a_a1_apply]

/-- The stored block [1, 1, 512] at (0, 0, a) is the vector's entry a. -/
theorem store_apply (w : FVec Ideal S512 .f32) (a : Fin 512) :
    shapeCast S1x1x512 (shapeCast S1x512 w shapeCasts_S512_S1x512) shapeCasts_S1x512_S1x1x512 (ix3 (0 : Fin 1) (0 : Fin 1) a) = w (ix1 a) := by
  rw [shapeCast_ab_1ab_apply, shapeCast_a_1a_apply]

/-- The loaded block [1, 512, 512] viewed as a matrix. -/
theorem block_apply (X0 : Vec Ideal S1x512x512 .f32) (a b : Fin 512) :
    shapeCast S512x512 X0 shapeCasts_S1x512x512_S512x512 (ix2 a b) = X0 (ix3 (0 : Fin 1) a b) :=
  shapeCast_1ab_ab_apply X0 _ a b

theorem dd_l0 (j : S512x512.Idx) (q : dot_S512x512_S512x512_S512x512_1_1_0_0_n_n.contr.Idx) :
    (dot_S512x512_S512x512_S512x512_1_1_0_0_n_n.lhsIdx j q 0).val = (j 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl

theorem dd_r0 (j : S512x512.Idx) (q : dot_S512x512_S512x512_S512x512_1_1_0_0_n_n.contr.Idx) :
    (dot_S512x512_S512x512_S512x512_1_1_0_0_n_n.rhsIdx j q 0).val = (j 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl

/-- The product of the rows with themselves over the features, at (a, b): the rows' inner product. -/
theorem gram_apply (X0 : Vec Ideal S1x512x512 .f32) (a b : Fin 512) :
    matmul (F := Ideal) dot_S512x512_S512x512_S512x512_1_1_0_0_n_n none
        (truncf .bf16 (shapeCast S512x512 X0 shapeCasts_S1x512x512_S512x512) bitsLt_bf16_f32)
        (truncf .bf16 (shapeCast S512x512 X0 shapeCasts_S1x512x512_S512x512) bitsLt_bf16_f32)
        (constant (F := Ideal) S512x512 .f32 0x00000000#32) (ix2 a b)
      = gram (fun r k => X0 (ix3 (0 : Fin 1) r k)) a b := by
  show FloatOps.matmul (F := Ideal) dot_S512x512_S512x512_S512x512_1_1_0_0_n_n none
      (truncf .bf16 (shapeCast S512x512 X0 shapeCasts_S1x512x512_S512x512) bitsLt_bf16_f32)
      (truncf .bf16 (shapeCast S512x512 X0 shapeCasts_S1x512x512_S512x512) bitsLt_bf16_f32)
      (constant (F := Ideal) S512x512 .f32 0x00000000#32) (ix2 a b) = _
  refine (Ideal.matmul_constant_zero_apply dot_S512x512_S512x512_S512x512_1_1_0_0_n_n none _ _ (ix2 a b)).trans ?_
  refine (Gram.sum_contr_last dot_S512x512_S512x512_S512x512_1_1_0_0_n_n rfl rfl rfl rfl dd_l0 dd_r0 _ _ (ix2 a b)).trans ?_
  refine Finset.sum_congr rfl fun k _ => ?_
  show shapeCast S512x512 X0 shapeCasts_S1x512x512_S512x512 (ix2 a k) * shapeCast S512x512 X0 shapeCasts_S1x512x512_S512x512 (ix2 b k) = _
  rw [block_apply, block_apply]

theorem cmpi_apply {s : Shape} {w : ℕ} (p : CmpIPredicate) (x y : IVec s w) (i : s.Idx) : cmpi p x y i = IntOp.cmpi p (x i) (y i) := rfl
theorem ix2_fst (a c : Fin 512) : (ix2 a c : (⟨2, ![512, 512]⟩ : Shape).Idx) 0 = a := rfl
theorem ix2_snd (a c : Fin 512) : (ix2 a c : (⟨2, ![512, 512]⟩ : Shape).Idx) 1 = c := rfl

/-! ## The body's values, one after the other -/

section Body

variable (X0 D0 : Vec Ideal S1x512x512 .f32)

/-- The off-diagonal mask 1 − [row = column]. -/
theorem pay2_apply (a b : Fin 512) : k1_pay2 (F := Ideal) (ix2 a b) = offDiag a b := by
  simp only [k1_pay2, subf_apply, broadcast_apply, sitofp_apply, extui_apply, cmpi_apply, sitofp_ideal, ind_setWidth, offDiag, eyeBit, one]
  rw [iota_single_apply .tc S512x512 32 0 iota_S512x512_d0_w32 (ix2 a b), iota_single_apply .tc S512x512 32 1 iota_S512x512_d1_w32 (ix2 a b)]
  rfl

/-- The loaded table as a matrix. -/
theorem pay3_apply (a b : Fin 512) : k1_pay3 D0 (ix2 a b) = D0 (ix3 (0 : Fin 1) a b) := by
  exact block_apply D0 a b

/-- The scaled logits. -/
def kL : FVec Ideal S512x512 .f32 :=
  mulf (matmul (F := Ideal) dot_S512x512_S512x512_S512x512_1_1_0_0_n_n none
      (truncf .bf16 (shapeCast S512x512 X0 shapeCasts_S1x512x512_S512x512) bitsLt_bf16_f32)
      (truncf .bf16 (shapeCast S512x512 X0 shapeCasts_S1x512x512_S512x512) bitsLt_bf16_f32)
      (constant (F := Ideal) S512x512 .f32 0x00000000#32))
    (broadcast S512x512 (Named.named (F := Ideal) κ "inv_temp" (φ := .f32) 0x41649249#32))

theorem kL_apply (a b : Fin 512) : kL X0 (ix2 a b) = logit (fun r k => X0 (ix3 (0 : Fin 1) r k)) a b := by
  unfold kL
  rw [mulf_apply, broadcast_apply, gram_apply, invTemp_named]
  rfl

/-- The logits less their column maxima. -/
def kZ : FVec Ideal S512x512 .f32 :=
  subf (kL X0) (broadcastTo S512x512 (shapeCast S1x512 (multiReduction .maximumf [0] S512 (kL X0) 0xFF800000#32 reduces_S512x512_S512 (.inl rfl) rfl)
    shapeCasts_S512_S1x512) broadcasts_S1x512_S512x512)

theorem kZ_apply (a b : Fin 512) : kZ X0 (ix2 a b) = shiftCols (logit (fun r k => X0 (ix3 (0 : Fin 1) r k))) a b := by
  unfold kZ
  rw [subf_apply, colMax_apply, kL_apply]
  simp only [kL_apply]
  rfl

/-- The table with its self entries at −∞. -/
def kM : FVec Ideal S512x512 .f32 :=
  select (cmpf .oeq (k1_pay3 D0) (broadcast S512x512 (Scalar.ofBits (F := Ideal) .f32 0x3F800000#32)))
    (broadcast S512x512 (Named.named (F := Ideal) κ "neg_big" (φ := .f32) 0xFF333332#32)) (k1_pay3 D0)

theorem kM_apply (a b : Fin 512) : kM D0 (ix2 a b) = masked (fun r c => D0 (ix3 (0 : Fin 1) r c)) a b := by
  unfold kM
  rw [select_apply, cmpf_apply, broadcast_apply, broadcast_apply, pay3_apply, negBig_named]
  rfl

theorem pay4_eq : k1_pay4 D0
    = addf (sitofp .f32 (extui 32 (cmpf .oeq (kM D0) (broadcastTo S512x512 (shapeCast S512x1
          (multiReduction .maximumf [1] S512 (kM D0) 0xFF800000#32 reduces_S512x512_S512_2 (.inl rfl) rfl) shapeCasts_S512_S512x1) broadcasts_S512x1_S512x512)) natLt_1_32))
        (mulf (k1_pay2 (F := Ideal)) (sitofp .f32 (extui 32 (cmpf .oeq (k1_pay3 D0) (broadcast S512x512 (Scalar.ofBits (F := Ideal) .f32 0x3F800000#32))) natLt_1_32))) := rfl

/-- The positives' mask. -/
theorem pay4_apply (a b : Fin 512) : k1_pay4 D0 (ix2 a b) = posMask (fun r c => D0 (ix3 (0 : Fin 1) r c)) a b := by
  rw [pay4_eq, addf_apply, sitofp_apply, extui_apply, cmpf_apply, rowMax_apply, mulf_apply, pay2_apply, sitofp_apply, extui_apply, cmpf_apply,
    broadcast_apply, pay3_apply, kM_apply]
  simp only [kM_apply, sitofp_ideal, ind_setWidth]
  rfl

theorem pay5_eq : k1_pay5 X0 D0
    = multiReduction .add [1] S512 (mulf (mulf (k1_pay3 D0) (k1_pay4 D0))
        (subf (kZ X0) (broadcastTo S512x512 (log (shapeCast S512x1
          (multiReduction .add [1] S512 (mulf (exp (kZ X0)) (k1_pay2 (F := Ideal))) 0x00000000#32 reduces_S512x512_S512_2 (.inl rfl) rfl) shapeCasts_S512_S512x1))
          broadcasts_S512x1_S512x512))) 0x00000000#32 reduces_S512x512_S512_2 (.inl rfl) rfl := rfl

/-- The log-probabilities. -/
theorem logProb_apply (a b : Fin 512) :
    subf (kZ X0) (broadcastTo S512x512 (log (shapeCast S512x1
          (multiReduction .add [1] S512 (mulf (exp (kZ X0)) (k1_pay2 (F := Ideal))) 0x00000000#32 reduces_S512x512_S512_2 (.inl rfl) rfl) shapeCasts_S512_S512x1))
          broadcasts_S512x1_S512x512) (ix2 a b)
      = logProb (shiftCols (logit (fun r k => X0 (ix3 (0 : Fin 1) r k)))) a b := by
  rw [subf_apply, logCol_apply, rowSum_apply, kZ_apply]
  simp only [mulf_apply, exp_apply, kZ_apply, pay2_apply]
  rfl

/-- The numerator: the row sum of table × positives × log-probabilities. -/
theorem pay5_apply (a : Fin 512) :
    k1_pay5 X0 D0 (ix1 a) = ∑ c : Fin 512, D0 (ix3 (0 : Fin 1) a c) * posMask (fun r c => D0 (ix3 (0 : Fin 1) r c)) a c
      * logProb (shiftCols (logit (fun r k => X0 (ix3 (0 : Fin 1) r k)))) a c := by
  rw [pay5_eq, rowSum_apply]
  refine Finset.sum_congr rfl fun c _ => ?_
  rw [mulf_apply, mulf_apply, pay3_apply, pay4_apply, logProb_apply]

/-- What the body stores at position a is the local contrastive loss of row a of the loaded block against the loaded table. -/
theorem local_apply (a : Fin 512) :
    k1_pay1 (F := Ideal) (k1_pay4 D0) (k1_pay5 X0 D0) (ix3 (0 : Fin 1) (0 : Fin 1) a)
      = localLoss (fun r k => X0 (ix3 (0 : Fin 1) r k)) (fun r c => D0 (ix3 (0 : Fin 1) r c)) a := by
  unfold k1_pay1
  rw [store_apply, mulf_apply, broadcast_apply, divf_apply, rowSum_apply, pay5_apply]
  simp only [pay4_apply]
  rfl

end Body

end Cert.KernelIdeal.KLocal

end
-- ==== Proof.KGlobal.lean ====
/-
  The global loss kernel's body, read at an index on the extended reals.

  The body loads the 64 pooled rows (512 entries each) and the 64 × 64 table looked up from the labels, and stores 64
  numbers. Its arithmetic is that of the local loss kernel on a 64 × 64 matrix of logits, with the maximum that normalises
  the logits taken over the second axis: the stored number at position a is the global contrastive loss of pooled row a.
-/
import proofs.«142398_j2241972929072_2_alg».proof.Proof.Gen.KernelIdeal.Skeleton
import proofs.«142398_j2241972929072_2_alg».proof.Proof.Spec
import proofs.«142398_j2241972929072_2_alg».proof.Proof.LibGram
import proofs.«142398_j2241972929072_2_alg».proof.Proof.LibColumn
import proofs.«142398_j2241972929072_2_alg».proof.Proof.LibRowSum
import Idealize.ShloMosaic.Lib.ValueLayout
import Idealize.ShloMosaic.Lib.Pipeline.Value
import Idealize.ShloMosaic.PureOps.IdealRules

noncomputable section

open scoped BigOperators

namespace Cert.KernelIdeal.KGlobal

open Cert.KernelIdeal Cert.KernelIdeal.Gen Idealize.ShloMosaic Idealize.ShloMosaic.ValueIdx Cert.Contrast

theorem invTemp_named : Named.named (F := Ideal) κ "inv_temp" (φ := .f32) 0x41649249#32 = invTemp :=
  IdealRules.named_const.ideal_named_scalar _ _ _ _ rfl

theorem negBig_named : Named.named (F := Ideal) κ "neg_big" (φ := .f32) 0xFF333332#32 = (⊥ : EReal) :=
  IdealRules.named_const.ideal_named_scalar _ _ _ _ rfl

theorem exp_apply {s : Shape} (x : FVec Ideal s .f32) (i : s.Idx) : exp x i = Ideal.exp (x i) := rfl
theorem log_apply {s : Shape} (x : FVec Ideal s .f32) (i : s.Idx) : log x i = Ideal.log (x i) := rfl
theorem sitofp_ideal {w : ℕ} (b : BitVec w) : FloatOps.sitofp (F := Ideal) .f32 b = (((b.toInt : ℝ)) : EReal) := rfl
theorem cmpi_apply {s : Shape} {w : ℕ} (p : CmpIPredicate) (x y : IVec s w) (i : s.Idx) : cmpi p x y i = IntOp.cmpi p (x i) (y i) := rfl

/-! ## The reductions and re-laid pieces, each read at an index -/

/-- The row maxima, laid back over the matrix as a column repeated along the rows. -/
theorem rowMax_apply (v : FVec Ideal S64x64 .f32) (hφ : FTy.f32 = FTy.f32 ∨ FTy.f32 = FTy.bf16) (hacc : (0xFF800000#32 : BitVec 32) = 0xFF800000#32) (a b : Fin 64) :
    broadcastTo S64x64 (shapeCast S64x1 (multiReduction .maximumf [1] S64 v 0xFF800000#32 reduces_S64x64_S64 hφ hacc)
      shapeCasts_S64_S64x1) broadcasts_S64x1_S64x64 (ix2 a b) = fmax (fun c => v (ix2 a c)) := by
  rw [broadcastTo_a1_ab_apply, shapeCast_a_a1_apply]
  refine (Gram.multiReduction_max_rows_apply v 0xFF800000#32 reduces_S64x64_S64 hφ hacc a).trans ?_
  rw [ofBits_negInf]
  rfl

/-- A row sum. -/
theorem rowSum_apply (v : FVec Ideal S64x64 .f32) (hφ : FTy.f32 = FTy.f32 ∨ FTy.f32 = FTy.bf16) (hacc : (0x00000000#32 : BitVec 32) = 0x00000000#32) (a : Fin 64) :
    multiReduction .add [1] S64 v 0x00000000#32 reduces_S64x64_S64 hφ hacc (ix1 a) = ∑ c : Fin 64, v (ix2 a c) :=
  multiReduction_add_rows_apply v reduces_S64x64_S64 hφ hacc a

/-- The logarithm of a column of row sums, laid back along the rows. -/
theorem logCol_apply (w : FVec Ideal S64 .f32) (a b : Fin 64) :
    broadcastTo S64x64 (log (shapeCast S64x1 w shapeCasts_S64_S64x1)) broadcasts_S64x1_S64x64 (ix2 a b)
      = Ideal.log (w (ix1 a)) := by
  rw [broadcastTo_a1_ab_apply, log_apply, shapeCast_a_a1_apply]

theorem dd_l0 (j : S64x64.Idx) (q : dot_S64x512_S64x512_S64x64_1_1_0_0_n_n.contr.Idx) :
    (dot_S64x512_S64x512_S64x64_1_1_0_0_n_n.lhsIdx j q 0).val = (j 0).val := by
  unfold DotDims.lhsIdx
  rw [dif_neg (show ¬(0 : Fin S64x512.rank) ∈ dot_S64x512_S64x512_S64x64_1_1_0_0_n_n.lhsBatch by decide), dif_pos (show (0 : Fin S64x512.rank) ∈ dot_S64x512_S64x512_S64x64_1_1_0_0_n_n.lhsNonContracting by decide)]
  rfl

theorem dd_r0 (j : S64x64.Idx) (q : dot_S64x512_S64x512_S64x64_1_1_0_0_n_n.contr.Idx) :
    (dot_S64x512_S64x512_S64x64_1_1_0_0_n_n.rhsIdx j q 0).val = (j 1).val := by
  unfold DotDims.rhsIdx
  rw [dif_neg (show ¬(0 : Fin S64x512.rank) ∈ dot_S64x512_S64x512_S64x64_1_1_0_0_n_n.rhsBatch by decide), dif_pos (show (0 : Fin S64x512.rank) ∈ dot_S64x512_S64x512_S64x64_1_1_0_0_n_n.rhsNonContracting by decide)]
  rfl

/-- The product of the pooled rows with themselves over the features, at (a, b): the rows' inner product. -/
theorem gram_apply (X0 : Vec Ideal S64x512 .f32) (a b : Fin 64) :
    matmul (F := Ideal) dot_S64x512_S64x512_S64x64_1_1_0_0_n_n none
        (truncf .bf16 (shapeCast S64x512 X0 shapeCasts_S64x512_S64x512) bitsLt_bf16_f32)
        (truncf .bf16 (shapeCast S64x512 X0 shapeCasts_S64x512_S64x512) bitsLt_bf16_f32)
        (constant (F := Ideal) S64x64 .f32 0x00000000#32) (ix2 a b)
      = gram (fun r k => X0 (ix2 r k)) a b := by
  show FloatOps.matmul (F := Ideal) dot_S64x512_S64x512_S64x64_1_1_0_0_n_n none
      (truncf .bf16 (shapeCast S64x512 X0 shapeCasts_S64x512_S64x512) bitsLt_bf16_f32)
      (truncf .bf16 (shapeCast S64x512 X0 shapeCasts_S64x512_S64x512) bitsLt_bf16_f32)
      (constant (F := Ideal) S64x64 .f32 0x00000000#32) (ix2 a b) = _
  refine (Ideal.matmul_constant_zero_apply dot_S64x512_S64x512_S64x64_1_1_0_0_n_n none _ _ (ix2 a b)).trans ?_
  refine (Gram.sum_contr_last dot_S64x512_S64x512_S64x64_1_1_0_0_n_n rfl rfl rfl rfl dd_l0 dd_r0 _ _ (ix2 a b)).trans ?_
  refine Finset.sum_congr rfl fun k _ => ?_
  show shapeCast S64x512 X0 shapeCasts_S64x512_S64x512 (ix2 a k) * shapeCast S64x512 X0 shapeCasts_S64x512_S64x512 (ix2 b k) = _
  rw [shapeCast_self]

/-! ## The body's values, one after the other -/

section Body

variable (X0 : Vec Ideal S64x512 .f32) (D0 : Vec Ideal S64x64 .f32)

/-- The off-diagonal mask 1 − [row = column]. -/
def gO : FVec Ideal S64x64 .f32 :=
  subf (broadcast S64x64 (Scalar.ofBits (F := Ideal) .f32 0x3F800000#32))
    (sitofp .f32 (extui 32 (cmpi .eq (iota .tc S64x64 32 [0] iota_S64x64_d0_w32) (iota .tc S64x64 32 [1] iota_S64x64_d1_w32)) natLt_1_32))

theorem gO_apply (a b : Fin 64) : gO (ix2 a b) = offDiag a b := by
  simp only [gO, subf_apply, broadcast_apply, sitofp_apply, extui_apply, cmpi_apply, sitofp_ideal, ind_setWidth, offDiag, eyeBit, one]
  rw [iota_single_apply .tc S64x64 32 0 iota_S64x64_d0_w32 (ix2 a b), iota_single_apply .tc S64x64 32 1 iota_S64x64_d1_w32 (ix2 a b)]
  rfl

/-- The loaded table. -/
def gD : FVec Ideal S64x64 .f32 := shapeCast S64x64 D0 shapeCasts_S64x64_S64x64

theorem gD_apply (a b : Fin 64) : gD D0 (ix2 a b) = D0 (ix2 a b) := by
  unfold gD
  rw [shapeCast_self]

/-- The scaled logits. -/
def gL : FVec Ideal S64x64 .f32 :=
  mulf (matmul (F := Ideal) dot_S64x512_S64x512_S64x64_1_1_0_0_n_n none
      (truncf .bf16 (shapeCast S64x512 X0 shapeCasts_S64x512_S64x512) bitsLt_bf16_f32)
      (truncf .bf16 (shapeCast S64x512 X0 shapeCasts_S64x512_S64x512) bitsLt_bf16_f32)
      (constant (F := Ideal) S64x64 .f32 0x00000000#32))
    (broadcast S64x64 (Named.named (F := Ideal) κ "inv_temp" (φ := .f32) 0x41649249#32))

theorem gL_apply (a b : Fin 64) : gL X0 (ix2 a b) = logit (fun r k => X0 (ix2 r k)) a b := by
  unfold gL
  rw [mulf_apply, broadcast_apply, gram_apply, invTemp_named]
  rfl

/-- The logits less their row maxima. -/
def gZ : FVec Ideal S64x64 .f32 :=
  subf (gL X0) (broadcastTo S64x64 (shapeCast S64x1 (multiReduction .maximumf [1] S64 (gL X0) 0xFF800000#32 reduces_S64x64_S64 (.inl rfl) rfl)
    shapeCasts_S64_S64x1) broadcasts_S64x1_S64x64)

theorem gZ_apply (a b : Fin 64) : gZ X0 (ix2 a b) = shiftRows (logit (fun r k => X0 (ix2 r k))) a b := by
  unfold gZ
  rw [subf_apply, rowMax_apply, gL_apply]
  simp only [gL_apply]
  rfl

/-- The table with its self entries at −∞. -/
def gM : FVec Ideal S64x64 .f32 :=
  select (cmpf .oeq (gD D0) (broadcast S64x64 (Scalar.ofBits (F := Ideal) .f32 0x3F800000#32)))
    (broadcast S64x64 (Named.named (F := Ideal) κ "neg_big" (φ := .f32) 0xFF333332#32)) (gD D0)

theorem gM_apply (a b : Fin 64) : gM D0 (ix2 a b) = masked (fun r c => D0 (ix2 r c)) a b := by
  unfold gM
  rw [select_apply, cmpf_apply, broadcast_apply, broadcast_apply, gD_apply, negBig_named]
  rfl

/-- The positives' mask. -/
def gP : FVec Ideal S64x64 .f32 :=
  addf (sitofp .f32 (extui 32 (cmpf .oeq (gM D0) (broadcastTo S64x64 (shapeCast S64x1
      (multiReduction .maximumf [1] S64 (gM D0) 0xFF800000#32 reduces_S64x64_S64 (.inl rfl) rfl) shapeCasts_S64_S64x1) broadcasts_S64x1_S64x64)) natLt_1_32))
    (mulf gO (sitofp .f32 (extui 32 (cmpf .oeq (gD D0) (broadcast S64x64 (Scalar.ofBits (F := Ideal) .f32 0x3F800000#32))) natLt_1_32)))

theorem gP_apply (a b : Fin 64) : gP D0 (ix2 a b) = posMask (fun r c => D0 (ix2 r c)) a b := by
  unfold gP
  rw [addf_apply, sitofp_apply, extui_apply, cmpf_apply, rowMax_apply, mulf_apply, gO_apply, sitofp_apply, extui_apply, cmpf_apply,
    broadcast_apply, gD_apply, gM_apply]
  simp only [gM_apply, sitofp_ideal, ind_setWidth]
  rfl

/-- The log-probabilities. -/
def gLP : FVec Ideal S64x64 .f32 :=
  subf (gZ X0) (broadcastTo S64x64 (log (shapeCast S64x1
    (multiReduction .add [1] S64 (mulf (exp (gZ X0)) gO) 0x00000000#32 reduces_S64x64_S64 (.inl rfl) rfl) shapeCasts_S64_S64x1))
    broadcasts_S64x1_S64x64)

theorem gLP_apply (a b : Fin 64) : gLP X0 (ix2 a b) = logProb (shiftRows (logit (fun r k => X0 (ix2 r k)))) a b := by
  unfold gLP
  rw [subf_apply, logCol_apply, rowSum_apply, gZ_apply]
  simp only [mulf_apply, exp_apply, gZ_apply, gO_apply]
  rfl

theorem pay2_eq : k2_pay2 X0 D0
    = divf (multiReduction .add [1] S64 (mulf (mulf (gD D0) (gP D0)) (gLP X0)) 0x00000000#32 reduces_S64x64_S64 (.inl rfl) rfl)
        (multiReduction .add [1] S64 (gP D0) 0x00000000#32 reduces_S64x64_S64 (.inl rfl) rfl) := rfl

/-- What the body stores at position a is the global contrastive loss of pooled row a against the loaded table. -/
theorem global_apply (a : Fin 64) :
    k2_pay1 (F := Ideal) (k2_pay2 X0 D0) (ix1 a)
      = globalLoss (fun r k => X0 (ix2 r k)) (fun r c => D0 (ix2 r c)) a := by
  unfold k2_pay1
  rw [mulf_apply, broadcast_apply, pay2_eq, divf_apply, rowSum_apply, rowSum_apply]
  simp only [mulf_apply, gD_apply, gP_apply, gLP_apply]
  rfl

end Body

end Cert.KernelIdeal.KGlobal

end
-- ==== Proof.KValue.lean ====
/-
  What each of the three kernel regions leaves in its output array, as one function of the arrays the region finds.

  A region runs its body once per grid point on the blocks of its input arrays at that point and writes the body's output
  block back to the output array. In all three regions the blocks are one batch each (the pooling and the local loss: 64
  points, block b of every array is batch b) or the whole array (the global loss: one point), the output blocks tile the
  output array, and the body's stored value at a position was read at an index in the modules of the three bodies. So
  after the region the output array holds: the pooled maxima of each batch's features; the local contrastive loss of
  every row of every batch; the global contrastive loss of every pooled row.
-/
import proofs.«142398_j2241972929072_2_alg».proof.Proof.Gen.KernelIdeal.Frame
import proofs.«142398_j2241972929072_2_alg».proof.Proof.KPool
import proofs.«142398_j2241972929072_2_alg».proof.Proof.KLocal
import proofs.«142398_j2241972929072_2_alg».proof.Proof.KGlobal

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Cert.Contrast
open Idealize.ShloMosaic.Pipeline (Dat Cfg Window)

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Region 0: the pooling -/

/-- At every point the blocks of both windows are the point's batch: block index (t, 0, 0). -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The pooled features: at (b, 0, k) the maximum over the sequence positions r of the features at (b, r, k). -/
def pooled (A : S64x1536x512.Idx → EReal) : S64x1x512.Idx → EReal :=
  fun i => fmax (fun r : Fin 1536 => A (ix3 (⟨(i 0).val, (i 0).isLt⟩ : Fin 64) r (⟨(i 2).val, (i 2).isLt⟩ : Fin 512)))

/-- One point's stored block against the pooled array, the loaded block being batch tb of the features. -/
theorem pool_point (X0 : Vec Ideal S1x1536x512 .f32) (A : S64x1536x512.Idx → EReal) (tb : Fin 64)
    (hX : ∀ (r : Fin 1536) (k : Fin 512), X0 (ix3 (0 : Fin 1) r k) = A (ix3 tb r k))
    (y : S1x1x512.Idx) (i : S64x1x512.Idx) (hi0 : (i 0).val = tb.val) (hi2 : (i 2).val = (y 2).val) :
    k0_pay1 (F := Ideal) X0 y = pooled A i := by
  obtain ⟨u, v, k, rfl⟩ : ∃ (u v : Fin 1) (k : Fin 512), y = ix3 u v k := ⟨y 0, y 1, y 2, eq_ix3 y⟩
  obtain rfl : u = 0 := Subsingleton.elim _ _
  obtain rfl : v = 0 := Subsingleton.elim _ _
  rw [KPool.pool_apply]
  unfold pooled
  have e0 : (⟨(i 0).val, (i 0).isLt⟩ : Fin 64) = tb := Fin.ext hi0
  have e2 : (⟨(i 2).val, (i 2).isLt⟩ : Fin 512) = k := Fin.ext hi2
  rw [e0, e2]
  simp only [hX]

theorem flushed0_eq (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz3]
  simp only [View.ld_unit_zero (S := S1x1536x512) hz3]
  obtain ⟨e0, e1, e2, e3, e4, e5⟩ := idx_facts0 t
  have ht : t.val < 64 := by have h : t.val < grid0.N := t.isLt; rw [N_0] at h; exact h
  funext y
  show k0_pay1 (F := Ideal) (iblk0 V c 0 t) y = pooled (V c main_arg0) (((cfg0.win 1).blk t).view.emb y)
  have hy0 : (y 0).val < 1 := (y 0).isLt
  refine pool_point (iblk0 V c 0 t) (V c main_arg0) ⟨t.val, ht⟩ (fun r k => ?_) y _ ?_ ?_
  · show V c main_arg0 (((cfg0.win 0).blk t).view.emb (ix3 (0 : Fin 1) r k)) = _
    refine congrArg (V c main_arg0) (funext fun a => Fin.ext ?_)
    match a with
    | ⟨0, _⟩ => show win0_0.index t (0 : Fin 3) * 1 + 1 * (0 : Nat) = t.val; omega
    | ⟨1, _⟩ => show win0_0.index t (1 : Fin 3) * 1536 + 1 * r.val = r.val; omega
    | ⟨2, _⟩ => show win0_0.index t (2 : Fin 3) * 512 + 1 * k.val = k.val; omega
  · show win0_1.index t (0 : Fin 3) * 1 + 1 * (y 0).val = t.val; omega
  · show win0_1.index t (2 : Fin 3) * 512 + 1 * (y 2).val = (y 2).val; omega

/-- An index of the pooled array is in point t's block iff each coordinate is in the block's range on its axis. -/
theorem mem_blk0 (t : Fin cfg0.N) (i : S64x1x512.Idx) :
    i ∈ ((cfg0.win 1).blk t).view.set ↔ ∀ a : Fin 3, win0_1.index t a * S1x1x512.size a ≤ (i a).val ∧ (i a).val < win0_1.index t a * S1x1x512.size a + S1x1x512.size a := by
  show i ∈ ((View.whole main_v28).slice (win0_1.rect t)).set ↔ _
  rw [View.set_slice_whole, Rect.mem_set_unit]
  exact Iff.rfl

/-- Every index of the pooled array is in the block of the point of its batch. -/
theorem cover0 (i : S64x1x512.Idx) : ∃ t : Fin cfg0.N, (cfg0.win 1).flush t = true ∧ i ∈ ((cfg0.win 1).blk t).view.set := by
  have hi0 : (i 0).val < 64 := (i 0).isLt
  have hi1 : (i 1).val < 1 := (i 1).isLt
  have hi2 : (i 2).val < 512 := (i 2).isLt
  have hN : (i 0).val < grid0.N := by rw [N_0]; exact hi0
  refine ⟨⟨(i 0).val, hN⟩, flush0_1 _, ?_⟩
  rw [mem_blk0]
  obtain ⟨e0, e1, e2, e3, e4, e5⟩ := idx_facts0 ⟨(i 0).val, hN⟩
  have e3' : win0_1.index ⟨(i 0).val, hN⟩ (0 : Fin 3) = (i 0).val := e3
  intro a
  match a with
  | ⟨0, _⟩ => show win0_1.index ⟨(i 0).val, hN⟩ (0 : Fin 3) * 1 ≤ (i 0).val ∧ (i 0).val < win0_1.index ⟨(i 0).val, hN⟩ (0 : Fin 3) * 1 + 1; omega
  | ⟨1, _⟩ => show win0_1.index ⟨(i 0).val, hN⟩ (1 : Fin 3) * 1 ≤ (i 1).val ∧ (i 1).val < win0_1.index ⟨(i 0).val, hN⟩ (1 : Fin 3) * 1 + 1; omega
  | ⟨2, _⟩ => show win0_1.index ⟨(i 0).val, hN⟩ (2 : Fin 3) * 512 ≤ (i 2).val ∧ (i 2).val < win0_1.index ⟨(i 0).val, hN⟩ (2 : Fin 3) * 512 + 512; omega

/-- After the pooling region its output array holds the pooled features of the array it read. -/
theorem final0 : (dat0 V c).arrAt 1 cfg0.N = pooled (V c main_arg0) :=
  (dat0 V c).arrAt_eq_of_cover 1 (pooled (V c main_arg0)) (fun t _ => flushed0_eq V c t) cover0

/-! ## Region 1: the local loss -/

/-- At every point the blocks of the three windows are the point's batch: block index (t, 0, 0). -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The local losses: at (b, 0, a) the local contrastive loss of row a of batch b's selected rows against batch b's table. -/
def localArr (X D : S64x512x512.Idx → EReal) : S64x1x512.Idx → EReal :=
  fun i => localLoss (fun r k => X (ix3 (⟨(i 0).val, (i 0).isLt⟩ : Fin 64) r k)) (fun r c => D (ix3 (⟨(i 0).val, (i 0).isLt⟩ : Fin 64) r c))
    (⟨(i 2).val, (i 2).isLt⟩ : Fin 512)

/-- One point's stored block against the array of local losses, the loaded blocks being batch tb of both inputs. -/
theorem local_point (X0 D0 : Vec Ideal S1x512x512 .f32) (X D : S64x512x512.Idx → EReal) (tb : Fin 64)
    (hX : ∀ (r k : Fin 512), X0 (ix3 (0 : Fin 1) r k) = X (ix3 tb r k)) (hD : ∀ (r k : Fin 512), D0 (ix3 (0 : Fin 1) r k) = D (ix3 tb r k))
    (y : S1x1x512.Idx) (i : S64x1x512.Idx) (hi0 : (i 0).val = tb.val) (hi2 : (i 2).val = (y 2).val) :
    k1_pay1 (F := Ideal) (k1_pay4 D0) (k1_pay5 X0 D0) y = localArr X D i := by
  obtain ⟨u, v, k, rfl⟩ : ∃ (u v : Fin 1) (k : Fin 512), y = ix3 u v k := ⟨y 0, y 1, y 2, eq_ix3 y⟩
  obtain rfl : u = 0 := Subsingleton.elim _ _
  obtain rfl : v = 0 := Subsingleton.elim _ _
  rw [KLocal.local_apply]
  unfold localArr
  have e0 : (⟨(i 0).val, (i 0).isLt⟩ : Fin 64) = tb := Fin.ext hi0
  have e2 : (⟨(i 2).val, (i 2).isLt⟩ : Fin 512) = k := Fin.ext hi2
  rw [e0, e2]
  simp only [hX, hD]

theorem flushed1_eq (t : Fin cfg1.N) :
    (dat1 V c).flushed 2 t = ((cfg1.win 2).blk t).view.read (Elt Ideal) (localArr (V c main_v1) (V c main_v14)) := by
  show (cfg1.win 2).cut (grid1.coords t) ((dat1 V c).after 2 t) = _
  rw [after1_2]
  unfold out1_2
  rw [View.canon_unit_zero hz3]
  simp only [View.ld_unit_zero (S := S1x512x512) hz3]
  obtain ⟨e0, e1, e2, e3, e4, e5, e6, e7, e8⟩ := idx_facts1 t
  have ht : t.val < 64 := by have h : t.val < grid1.N := t.isLt; rw [N_1] at h; exact h
  funext y
  show k1_pay1 (F := Ideal) (k1_pay4 (iblk1 V c 1 t)) (k1_pay5 (iblk1 V c 0 t) (iblk1 V c 1 t)) y
    = localArr (V c main_v1) (V c main_v14) (((cfg1.win 2).blk t).view.emb y)
  have hy0 : (y 0).val < 1 := (y 0).isLt
  refine local_point (iblk1 V c 0 t) (iblk1 V c 1 t) (V c main_v1) (V c main_v14) ⟨t.val, ht⟩ (fun r k => ?_) (fun r k => ?_) y _ ?_ ?_
  · show V c main_v1 (((cfg1.win 0).blk t).view.emb (ix3 (0 : Fin 1) r k)) = _
    refine congrArg (V c main_v1) (funext fun a => Fin.ext ?_)
    match a with
    | ⟨0, _⟩ => show win1_0.index t (0 : Fin 3) * 1 + 1 * (0 : Nat) = t.val; omega
    | ⟨1, _⟩ => show win1_0.index t (1 : Fin 3) * 512 + 1 * r.val = r.val; omega
    | ⟨2, _⟩ => show win1_0.index t (2 : Fin 3) * 512 + 1 * k.val = k.val; omega
  · show V c main_v14 (((cfg1.win 1).blk t).view.emb (ix3 (0 : Fin 1) r k)) = _
    refine congrArg (V c main_v14) (funext fun a => Fin.ext ?_)
    match a with
    | ⟨0, _⟩ => show win1_1.index t (0 : Fin 3) * 1 + 1 * (0 : Nat) = t.val; omega
    | ⟨1, _⟩ => show win1_1.index t (1 : Fin 3) * 512 + 1 * r.val = r.val; omega
    | ⟨2, _⟩ => show win1_1.index t (2 : Fin 3) * 512 + 1 * k.val = k.val; omega
  · show win1_2.index t (0 : Fin 3) * 1 + 1 * (y 0).val = t.val; omega
  · show win1_2.index t (2 : Fin 3) * 512 + 1 * (y 2).val = (y 2).val; omega

theorem mem_blk1 (t : Fin cfg1.N) (i : S64x1x512.Idx) :
    i ∈ ((cfg1.win 2).blk t).view.set ↔ ∀ a : Fin 3, win1_2.index t a * S1x1x512.size a ≤ (i a).val ∧ (i a).val < win1_2.index t a * S1x1x512.size a + S1x1x512.size a := by
  show i ∈ ((View.whole main_v30).slice (win1_2.rect t)).set ↔ _
  rw [View.set_slice_whole, Rect.mem_set_unit]
  exact Iff.rfl

theorem cover1 (i : S64x1x512.Idx) : ∃ t : Fin cfg1.N, (cfg1.win 2).flush t = true ∧ i ∈ ((cfg1.win 2).blk t).view.set := by
  have hi0 : (i 0).val < 64 := (i 0).isLt
  have hi1 : (i 1).val < 1 := (i 1).isLt
  have hi2 : (i 2).val < 512 := (i 2).isLt
  have hN : (i 0).val < grid1.N := by rw [N_1]; exact hi0
  refine ⟨⟨(i 0).val, hN⟩, flush1_2 _, ?_⟩
  rw [mem_blk1]
  obtain ⟨e0, e1, e2, e3, e4, e5, e6, e7, e8⟩ := idx_facts1 ⟨(i 0).val, hN⟩
  have e6' : win1_2.index ⟨(i 0).val, hN⟩ (0 : Fin 3) = (i 0).val := e6
  intro a
  match a with
  | ⟨0, _⟩ => show win1_2.index ⟨(i 0).val, hN⟩ (0 : Fin 3) * 1 ≤ (i 0).val ∧ (i 0).val < win1_2.index ⟨(i 0).val, hN⟩ (0 : Fin 3) * 1 + 1; omega
  | ⟨1, _⟩ => show win1_2.index ⟨(i 0).val, hN⟩ (1 : Fin 3) * 1 ≤ (i 1).val ∧ (i 1).val < win1_2.index ⟨(i 0).val, hN⟩ (1 : Fin 3) * 1 + 1; omega
  | ⟨2, _⟩ => show win1_2.index ⟨(i 0).val, hN⟩ (2 : Fin 3) * 512 ≤ (i 2).val ∧ (i 2).val < win1_2.index ⟨(i 0).val, hN⟩ (2 : Fin 3) * 512 + 512; omega

/-- After the local loss region its output array holds the local losses of the two arrays it read. -/
theorem final1 : (dat1 V c).arrAt 2 cfg1.N = localArr (V c main_v1) (V c main_v14) :=
  (dat1 V c).arrAt_eq_of_cover 2 (localArr (V c main_v1) (V c main_v14)) (fun t _ => flushed1_eq V c t) cover1

/-! ## Region 2: the global loss -/

/-- The one point's blocks are the whole arrays: block index 0 on every axis. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0 ∧ win2_2.index t (0 : Fin 1) = 0 :=
  (by decide +kernel : ∀ t : Fin grid2.N, _)

/-- The global losses: at a the global contrastive loss of pooled row a against the labels' table. -/
def globalArr (X : S64x512.Idx → EReal) (D : S64x64.Idx → EReal) : S64.Idx → EReal :=
  fun i => globalLoss (fun r k => X (ix2 r k)) (fun r c => D (ix2 r c)) (⟨(i 0).val, (i 0).isLt⟩ : Fin 64)

/-- The point's stored block against the array of global losses, the loaded blocks being the whole inputs. -/
theorem global_point (X0 : Vec Ideal S64x512 .f32) (D0 : Vec Ideal S64x64 .f32) (X : S64x512.Idx → EReal) (D : S64x64.Idx → EReal)
    (hX : ∀ (r : Fin 64) (k : Fin 512), X0 (ix2 r k) = X (ix2 r k)) (hD : ∀ (r k : Fin 64), D0 (ix2 r k) = D (ix2 r k))
    (y : S64.Idx) (i : S64.Idx) (hi : (i 0).val = (y 0).val) :
    k2_pay1 (F := Ideal) (k2_pay2 X0 D0) y = globalArr X D i := by
  obtain ⟨a, rfl⟩ : ∃ a : Fin 64, y = ix1 a := ⟨y 0, eq_ix1 y⟩
  rw [KGlobal.global_apply]
  unfold globalArr
  have e0 : (⟨(i 0).val, (i 0).isLt⟩ : Fin 64) = a := Fin.ext hi
  rw [e0]
  simp only [hX, hD]

theorem flushed2_eq (t : Fin cfg2.N) :
    (dat2 V c).flushed 2 t = ((cfg2.win 2).blk t).view.read (Elt Ideal) (globalArr (V c main_v29) (V c main_v27)) := by
  show (cfg2.win 2).cut (grid2.coords t) ((dat2 V c).after 2 t) = _
  rw [after2_2]
  unfold out2_2
  rw [View.canon_unit_zero hz1]
  simp only [View.ld_unit_zero (S := S64x512) hz2, View.ld_unit_zero (S := S64x64) hz2]
  obtain ⟨e0, e1, e2, e3, e4⟩ := idx_facts2 t
  funext y
  show k2_pay1 (F := Ideal) (k2_pay2 (iblk2 V c 0 t) (iblk2 V c 1 t)) y
    = globalArr (V c main_v29) (V c main_v27) (((cfg2.win 2).blk t).view.emb y)
  refine global_point (iblk2 V c 0 t) (iblk2 V c 1 t) (V c main_v29) (V c main_v27) (fun r k => ?_) (fun r k => ?_) y _ ?_
  · show V c main_v29 (((cfg2.win 0).blk t).view.emb (ix2 r k)) = _
    refine congrArg (V c main_v29) (funext fun a => Fin.ext ?_)
    match a with
    | ⟨0, _⟩ => show win2_0.index t (0 : Fin 2) * 64 + 1 * r.val = r.val; omega
    | ⟨1, _⟩ => show win2_0.index t (1 : Fin 2) * 512 + 1 * k.val = k.val; omega
  · show V c main_v27 (((cfg2.win 1).blk t).view.emb (ix2 r k)) = _
    refine congrArg (V c main_v27) (funext fun a => Fin.ext ?_)
    match a with
    | ⟨0, _⟩ => show win2_1.index t (0 : Fin 2) * 64 + 1 * r.val = r.val; omega
    | ⟨1, _⟩ => show win2_1.index t (1 : Fin 2) * 64 + 1 * k.val = k.val; omega
  · show win2_2.index t (0 : Fin 1) * 64 + 1 * (y 0).val = (y 0).val; omega

theorem mem_blk2 (t : Fin cfg2.N) (i : S64.Idx) :
    i ∈ ((cfg2.win 2).blk t).view.set ↔ ∀ a : Fin 1, win2_2.index t a * S64.size a ≤ (i a).val ∧ (i a).val < win2_2.index t a * S64.size a + S64.size a := by
  show i ∈ ((View.whole main_v32).slice (win2_2.rect t)).set ↔ _
  rw [View.set_slice_whole, Rect.mem_set_unit]
  exact Iff.rfl

theorem cover2 (i : S64.Idx) : ∃ t : Fin cfg2.N, (cfg2.win 2).flush t = true ∧ i ∈ ((cfg2.win 2).blk t).view.set := by
  have hi0 : (i 0).val < 64 := (i 0).isLt
  refine ⟨t2_0, flush2_2 _, ?_⟩
  rw [mem_blk2]
  obtain ⟨e0, e1, e2, e3, e4⟩ := idx_facts2 t2_0
  intro a
  match a with
  | ⟨0, _⟩ => show win2_2.index t2_0 (0 : Fin 1) * 64 ≤ (i 0).val ∧ (i 0).val < win2_2.index t2_0 (0 : Fin 1) * 64 + 64; omega

/-- After the global loss region its output array holds the global losses of the two arrays it read. -/
theorem final2 : (dat2 V c).arrAt 2 cfg2.N = globalArr (V c main_v29) (V c main_v27) :=
  (dat2 V c).arrAt_eq_of_cover 2 (globalArr (V c main_v29) (V c main_v27)) (fun t _ => flushed2_eq V c t) cover2

end Cert.KernelIdeal.KValue

end
-- ==== Proof.RPool.lean ====
/-
  The reference's pooling, read at an index on the extended reals: the maximum of the features over the sequence axis, at
  batch b and feature k, is the fold of max (from −∞) over the 1536 entries (b, r, k).
-/
import proofs.«142398_j2241972929072_2_alg».proof.Proof.RefReadP
import proofs.«142398_j2241972929072_2_alg».proof.Proof.Spec

noncomputable section

namespace Cert.ReferenceIdeal.RPool

open Cert.ReferenceIdeal Cert.ReferenceIdeal.Gen Cert.ReferenceIdeal.ReadP Idealize.ShloMosaic Idealize.ShloMosaic.ValueIdx Cert.Contrast

theorem lift_p (h : S64x1536x512.Reduces [1] S64x512) (b : Fin 64) (k : Fin 512) (r : Fin 1536) : h.lift (ix2 b k) r = ix3 b r k := funext fun a => Fin.ext (by match a with | ⟨0, _⟩ => rfl | ⟨1, _⟩ => rfl | ⟨2, _⟩ => rfl)

/-- The maximum over the sequence axis: at (b, k) the fold of max over the entries (b, r, k). -/
theorem hostMax_p (y : S64x1536x512.Idx → EReal) (b : Fin 64) (k : Fin 512) :
    Host.reduce FloatOps.maximumf y (constant (F := Ideal) S_ .f32 0xFF800000#32) reducesTo_S64x1536x512_S64x512_d1 h_S_ (ix2 b k)
      = fmax (fun r : Fin 1536 => y (ix3 b r k)) := by
  have h : S64x1536x512.Reduces [1] S64x512 := by decide
  have e0 : (constant (F := Ideal) S_ .f32 0xFF800000#32) (Shape.Idx.first h_S_) = (⊥ : EReal) := ofBits_negInf
  rw [Host.reduce_eq_fold_single FloatOps.maximumf y (constant (F := Ideal) S_ .f32 0xFF800000#32) reducesTo_S64x1536x512_S64x512_d1 h h_S_ (ix2 b k), e0]
  exact Finset.fold_congr fun r _ => congrArg y (lift_p h b k r)

theorem v59_apply (x0 : (⟨S64x1536x512, .f32⟩ : BufTy).Contents (Elt Ideal)) (b : Fin 64) (k : Fin 512) :
    val_main_v59 (F := Ideal) x0 (ix2 b k) = fmax (fun r : Fin 1536 => x0 (ix3 b r k)) :=
  hostMax_p _ b k

end Cert.ReferenceIdeal.RPool

end
-- ==== Proof.LibMiddleUnit.lean ====
/-
  A middle unit axis dropped, read at an index: an [a, 1, b] array viewed as [a, b] (what indexing a keepdims result
  at position 0 of its unit axis produces) reads, at (i, j), the operand at (i, 0, j), for any extents.
-/
import Idealize.ShloMosaic.Lib.Pipeline.Value
import Idealize.ShloMosaic.Lib.ValueIdx

namespace Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.ValueIdx
-- ==== Proof.KChain.lean ====
/-
  The kernel program's two result arrays after its last region, as functions of the argument arrays.

  @main is a fold: stretches of host operations (the selection of feature rows by index, the two table look-ups by lag) and
  the three regions, each entered at the buffer contents the segment before it left. Reading a buffer after the last region
  walks that fold back: a buffer no later segment writes keeps what the segment that wrote it left; a region's output array
  holds what the region modules say; a host operation's result is its function of its operands' contents. The first result
  is the local-loss region's output with its unit axis dropped, the second the global-loss region's output; their inputs are
  the same host computations of the arguments that the reference's run makes (its stages `val_main_v1`, `val_main_v21`,
  `val_main_v80`), and the pooled features (its stage `val_main_v59`).
-/
import proofs.«142398_j2241972929072_2_alg».proof.Proof.KValue
import proofs.«142398_j2241972929072_2_alg».proof.Proof.RefReadP
import proofs.«142398_j2241972929072_2_alg».proof.Proof.RPool
import proofs.«142398_j2241972929072_2_alg».proof.Proof.LibMiddleUnit

set_option maxRecDepth 16384

noncomputable section

namespace Cert.KernelIdeal.KChain

open Cert.KernelIdeal Cert.KernelIdeal.Gen Cert.KernelIdeal.KValue Idealize.ShloMosaic Idealize.ShloMosaic.TcCoe Idealize.ShloMosaic.ValueIdx Idealize.SL.Sem Cert.Contrast
open Idealize.ShloMosaic.StableHlo

variable (m : (ℓ : Loc nD τ sig) → Buf (Elt Ideal) ℓ) (ρ : Dev nD → PrngReg) (c : Dev nD)

/-! ## The arguments, unchanged through the host stretches before the first region -/

theorem w1_arg0 : W1 m ρ c (Proc.devRef .tc main_arg0) = m ((c : Thread nD τ).loc main_arg0) := by
  show StableHlo.after hostOps0 (W0 m ρ c) (Proc.devRef .tc main_arg0) = _
  after_results
  all_goals rfl

theorem w1_v0 : W1 m ρ c (Proc.devRef .tc main_v0)
    = broadcastInDim S64x512x1 ![0, 1] bcast_S64x512_S64x512x1_0_1 (m ((c : Thread nD τ).loc main_arg3)) := by
  show StableHlo.after hostOps0 (W0 m ρ c) (Proc.devRef .tc main_v0) = _
  after_results
  all_goals rfl

set_option maxHeartbeats 4000000 in
theorem w3_arg0 : W3 m ρ c (Proc.devRef .tc main_arg0) = m ((c : Thread nD τ).loc main_arg0) := by
  show StableHlo.after hostOps0_2 (W2 m ρ c) (Proc.devRef .tc main_arg0) = _
  after_results_simp
  all_goals rfl

/-! ## The host computations before the regions: the reference's own stages of the arguments -/

set_option maxHeartbeats 4000000 in
set_option maxRecDepth 200000 in
/-- The selected feature rows. -/
theorem w3_v1 : W3 m ρ c (Proc.devRef .tc main_v1)
    = Cert.ReferenceIdeal.ReadP.val_main_v1 (F := Ideal) (m ((c : Thread nD τ).loc main_arg0)) (m ((c : Thread nD τ).loc main_arg3)) := by
  show StableHlo.after hostOps0_2 (W2 m ρ c) (Proc.devRef .tc main_v1) = _
  after_results_simp
  all_goals rfl

set_option maxHeartbeats 4000000 in
set_option maxRecDepth 200000 in
/-- The local table: the autocorrelation values at the lags between selected positions. -/
theorem w3_v14 : W3 m ρ c (Proc.devRef .tc main_v14)
    = Cert.ReferenceIdeal.ReadP.val_main_v21 (F := Ideal) (m ((c : Thread nD τ).loc main_arg1)) (m ((c : Thread nD τ).loc main_arg3)) := by
  show StableHlo.after hostOps0_2 (W2 m ρ c) (Proc.devRef .tc main_v14) = _
  after_results_simp
  all_goals rfl

set_option maxHeartbeats 4000000 in
set_option maxRecDepth 200000 in
/-- The global table: the autocorrelation values at the lags between labels. -/
theorem w3_v27 : W3 m ρ c (Proc.devRef .tc main_v27)
    = Cert.ReferenceIdeal.ReadP.val_main_v80 (F := Ideal) (m ((c : Thread nD τ).loc main_arg1)) (m ((c : Thread nD τ).loc main_arg2)) := by
  show StableHlo.after hostOps0_2 (W2 m ρ c) (Proc.devRef .tc main_v27) = _
  after_results_simp
  all_goals rfl

/-! ## Through the regions -/

theorem w5_v1 : W5 m ρ c (Proc.devRef .tc main_v1) = Cert.ReferenceIdeal.ReadP.val_main_v1 (F := Ideal) (m ((c : Thread nD τ).loc main_arg0)) (m ((c : Thread nD τ).loc main_arg3)) := by
  show StableHlo.after hostOps1 (W4 m ρ c) (Proc.devRef .tc main_v1) = _
  after_results
  rw [W4_of_ne m ρ c main_v1 (by decide)]
  exact w3_v1 m ρ c

theorem w5_v14 : W5 m ρ c (Proc.devRef .tc main_v14) = Cert.ReferenceIdeal.ReadP.val_main_v21 (F := Ideal) (m ((c : Thread nD τ).loc main_arg1)) (m ((c : Thread nD τ).loc main_arg3)) := by
  show StableHlo.after hostOps1 (W4 m ρ c) (Proc.devRef .tc main_v14) = _
  after_results
  rw [W4_of_ne m ρ c main_v14 (by decide)]
  exact w3_v14 m ρ c

theorem w7_v27 : W7 m ρ c (Proc.devRef .tc main_v27) = Cert.ReferenceIdeal.ReadP.val_main_v80 (F := Ideal) (m ((c : Thread nD τ).loc main_arg1)) (m ((c : Thread nD τ).loc main_arg2)) := by
  show StableHlo.after hostOps2 (W6 m ρ c) (Proc.devRef .tc main_v27) = _
  after_results
  rw [W6_of_ne m ρ c main_v27 (by decide)]
  show StableHlo.after hostOps1 (W4 m ρ c) (Proc.devRef .tc main_v27) = _
  after_results
  rw [W4_of_ne m ρ c main_v27 (by decide)]
  exact w3_v27 m ρ c

/-- After the pooling region its output array holds the pooled features. -/
theorem w4_v28 : W4 m ρ c (Proc.devRef .tc main_v28) = pooled (m ((c : Thread nD τ).loc main_arg0)) := by
  refine (W4_arr m ρ c 1).trans ((final0 (V3 m ρ) c).trans ?_)
  show pooled (W3 m ρ c (Proc.devRef .tc main_arg0)) = _
  rw [w3_arg0]

/-- The pooled features with the unit axis dropped are the reference's pooled features. -/
theorem w7_v29 : W7 m ρ c (Proc.devRef .tc main_v29) = Cert.ReferenceIdeal.ReadP.val_main_v59 (F := Ideal) (m ((c : Thread nD τ).loc main_arg0)) := by
  show StableHlo.after hostOps2 (W6 m ρ c) (Proc.devRef .tc main_v29) = _
  after_results
  rw [W6_of_ne m ρ c main_v29 (by decide)]
  show StableHlo.after hostOps1 (W4 m ρ c) (Proc.devRef .tc main_v29) = _
  after_results
  rw [w4_v28]
  funext j
  obtain ⟨b, k, rfl⟩ : ∃ (b : Fin 64) (k : Fin 512), j = ix2 b k := ⟨j 0, j 1, eq_ix2 j⟩
  rw [Cert.ReferenceIdeal.RPool.v59_apply]
  show shapeCast S64x512 (pooled (m ((c : Thread nD τ).loc main_arg0))) shapeCasts_S64x1x512_S64x512 (ix2 b k) = _
  rw [shapeCast_a1b_ab_apply]
  rfl

/-- After the local loss region its output array holds the local losses of the selected rows against the local table. -/
theorem w6_v30 : W6 m ρ c (Proc.devRef .tc main_v30)
    = localArr (Cert.ReferenceIdeal.ReadP.val_main_v1 (F := Ideal) (m ((c : Thread nD τ).loc main_arg0)) (m ((c : Thread nD τ).loc main_arg3))) (Cert.ReferenceIdeal.ReadP.val_main_v21 (F := Ideal) (m ((c : Thread nD τ).loc main_arg1)) (m ((c : Thread nD τ).loc main_arg3))) := by
  refine (W6_arr m ρ c 2).trans ((final1 (V5 m ρ) c).trans ?_)
  show localArr (W5 m ρ c (Proc.devRef .tc main_v1)) (W5 m ρ c (Proc.devRef .tc main_v14)) = _
  rw [w5_v1, w5_v14]

/-! ## The two results -/

/-- The local losses as the program returns them: at (b, a) the local contrastive loss of row a of batch b. -/
def localOut (X D : S64x512x512.Idx → EReal) : S64x512.Idx → EReal :=
  fun j => localLoss (fun r k => X (ix3 (⟨(j 0).val, (j 0).isLt⟩ : Fin 64) r k)) (fun r c => D (ix3 (⟨(j 0).val, (j 0).isLt⟩ : Fin 64) r c))
    (⟨(j 1).val, (j 1).isLt⟩ : Fin 512)

theorem out_local : W8 m ρ c (Proc.devRef .tc main_v31)
    = localOut (Cert.ReferenceIdeal.ReadP.val_main_v1 (F := Ideal) (m ((c : Thread nD τ).loc main_arg0)) (m ((c : Thread nD τ).loc main_arg3))) (Cert.ReferenceIdeal.ReadP.val_main_v21 (F := Ideal) (m ((c : Thread nD τ).loc main_arg1)) (m ((c : Thread nD τ).loc main_arg3))) := by
  rw [W8_of_ne m ρ c main_v31 (by decide)]
  show StableHlo.after hostOps2 (W6 m ρ c) (Proc.devRef .tc main_v31) = _
  after_results
  rw [w6_v30]
  funext j
  obtain ⟨b, a, rfl⟩ : ∃ (b : Fin 64) (a : Fin 512), j = ix2 b a := ⟨j 0, j 1, eq_ix2 j⟩
  show shapeCast S64x512 (localArr (Cert.ReferenceIdeal.ReadP.val_main_v1 (F := Ideal) (m ((c : Thread nD τ).loc main_arg0)) (m ((c : Thread nD τ).loc main_arg3))) (Cert.ReferenceIdeal.ReadP.val_main_v21 (F := Ideal) (m ((c : Thread nD τ).loc main_arg1)) (m ((c : Thread nD τ).loc main_arg3))))
    shapeCasts_S64x1x512_S64x512 (ix2 b a) = _
  rw [shapeCast_a1b_ab_apply]
  rfl

theorem out_global : W8 m ρ c (Proc.devRef .tc main_v32)
    = globalArr (Cert.ReferenceIdeal.ReadP.val_main_v59 (F := Ideal) (m ((c : Thread nD τ).loc main_arg0))) (Cert.ReferenceIdeal.ReadP.val_main_v80 (F := Ideal) (m ((c : Thread nD τ).loc main_arg1)) (m ((c : Thread nD τ).loc main_arg2))) := by
  refine (W8_arr m ρ c 2).trans ((final2 (V7 m ρ) c).trans ?_)
  show globalArr (W7 m ρ c (Proc.devRef .tc main_v29)) (W7 m ρ c (Proc.devRef .tc main_v27)) = _
  rw [w7_v29, w7_v27]

end Cert.KernelIdeal.KChain

end
-- ==== Proof.RLocal.lean ====
/-
  The reference's local loss, read at an index on the extended reals.

  The reference works on all 64 batches at once: arrays of shape [64, 512, 512]. Every stage of its run is read at an
  index from the stage before it; the two maxima are folds of max over one axis, the three sums plain sums over the last
  axis, and the batched product of the selected rows with themselves is, in batch b at (i, j), the inner product of rows i
  and j of that batch. So its result at (b, i) is the contrastive loss of row i of batch b's block of selected rows against
  batch b's table, the logits normalised over the first of their two axes.
-/
import proofs.«142398_j2241972929072_2_alg».proof.Proof.RefReadP
import proofs.«142398_j2241972929072_2_alg».proof.Proof.Spec

noncomputable section

open scoped BigOperators

namespace Cert.ReferenceIdeal.RLocal

open Cert.ReferenceIdeal Cert.ReferenceIdeal.Gen Cert.ReferenceIdeal.ReadP Idealize.ShloMosaic Idealize.ShloMosaic.ValueIdx Cert.Contrast

/-! ## The composed index maps of the stages, by coordinates -/

theorem e54 (b : Fin 64) (i k : Fin 512) : idx_main_v54 (ix2 b i) k = ix3 b i k := funext fun a => Fin.ext (by match a with | ⟨0, _⟩ => rfl | ⟨1, _⟩ => rfl | ⟨2, _⟩ => rfl)
theorem e55 (b : Fin 64) (i k : Fin 512) : idx_main_v55 (ix2 b i) k = ix3 b i k := funext fun a => Fin.ext (by match a with | ⟨0, _⟩ => rfl | ⟨1, _⟩ => rfl | ⟨2, _⟩ => rfl)
theorem e47 (b : Fin 64) (i k k1 : Fin 512) : idx_main_v47 (idx_main_v48 (idx_main_v50 (ix3 b i k))) k1 = ix3 b i k1 := funext fun a => Fin.ext (by match a with | ⟨0, _⟩ => rfl | ⟨1, _⟩ => rfl | ⟨2, _⟩ => rfl)
theorem e34 (b : Fin 64) (i k : Fin 512) : idx_main_v34 (idx_main_v35 (ix3 b i k)) = ix2 b i := funext fun a => Fin.ext (by match a with | ⟨0, _⟩ => rfl | ⟨1, _⟩ => rfl)
theorem e6 (b : Fin 64) (i k : Fin 512) : idx_main_v6 (idx_main_v7 (ix3 b i k)) = ix2 b k := funext fun a => Fin.ext (by match a with | ⟨0, _⟩ => rfl | ⟨1, _⟩ => rfl)
theorem el (b : Fin 64) (i k x : Fin 512) : lidx_main_v2 (ix3 b i k) x = ix3 b i x := funext fun a => Fin.ext (by match a with | ⟨0, _⟩ => rfl | ⟨1, _⟩ => rfl | ⟨2, _⟩ => rfl)
theorem er (b : Fin 64) (i k x : Fin 512) : ridx_main_v2 (ix3 b i k) x = ix3 b k x := funext fun a => Fin.ext (by match a with | ⟨0, _⟩ => rfl | ⟨1, _⟩ => rfl | ⟨2, _⟩ => rfl)
theorem ix2_snd (b : Fin 64) (i : Fin 512) : (ix2 b i : (⟨2, ![64, 512]⟩ : Shape).Idx) 1 = i := rfl

/-! ## The two maxima -/

theorem lift_d1 (h : S64x512x512.Reduces [1] S64x512) (b : Fin 64) (j r : Fin 512) : h.lift (ix2 b j) r = ix3 b r j := funext fun a => Fin.ext (by match a with | ⟨0, _⟩ => rfl | ⟨1, _⟩ => rfl | ⟨2, _⟩ => rfl)
theorem lift_d2 (h : S64x512x512.Reduces [2] S64x512) (b : Fin 64) (i c : Fin 512) : h.lift (ix2 b i) c = ix3 b i c := funext fun a => Fin.ext (by match a with | ⟨0, _⟩ => rfl | ⟨1, _⟩ => rfl | ⟨2, _⟩ => rfl)

/-- The maximum over the rows: at (b, j) the fold of max over the entries (b, r, j). -/
theorem hostMax_d1 (y : S64x512x512.Idx → EReal) (b : Fin 64) (j : Fin 512) :
    Host.reduce FloatOps.maximumf y (constant (F := Ideal) S_ .f32 0xFF800000#32) reducesTo_S64x512x512_S64x512_d1 h_S_ (ix2 b j)
      = fmax (fun r => y (ix3 b r j)) := by
  have h : S64x512x512.Reduces [1] S64x512 := by decide
  have e0 : (constant (F := Ideal) S_ .f32 0xFF800000#32) (Shape.Idx.first h_S_) = (⊥ : EReal) := ofBits_negInf
  rw [Host.reduce_eq_fold_single FloatOps.maximumf y (constant (F := Ideal) S_ .f32 0xFF800000#32) reducesTo_S64x512x512_S64x512_d1 h h_S_ (ix2 b j), e0]
  exact Finset.fold_congr fun r _ => congrArg y (lift_d1 h b j r)

/-- The maximum over the columns: at (b, i) the fold of max over the entries (b, i, c). -/
theorem hostMax_d2 (y : S64x512x512.Idx → EReal) (b : Fin 64) (i : Fin 512) :
    Host.reduce FloatOps.maximumf y (constant (F := Ideal) S_ .f32 0xFF800000#32) reducesTo_S64x512x512_S64x512_d2 h_S_ (ix2 b i)
      = fmax (fun c => y (ix3 b i c)) := by
  have h : S64x512x512.Reduces [2] S64x512 := by decide
  have e0 : (constant (F := Ideal) S_ .f32 0xFF800000#32) (Shape.Idx.first h_S_) = (⊥ : EReal) := ofBits_negInf
  rw [Host.reduce_eq_fold_single FloatOps.maximumf y (constant (F := Ideal) S_ .f32 0xFF800000#32) reducesTo_S64x512x512_S64x512_d2 h h_S_ (ix2 b i), e0]
  exact Finset.fold_congr fun c _ => congrArg y (lift_d2 h b i c)

variable (x0 : (⟨S64x1536x512, .f32⟩ : BufTy).Contents (Elt Ideal)) (x1 : (⟨S5000, .f32⟩ : BufTy).Contents (Elt Ideal))
  (x3 : (⟨S64x512, .i32⟩ : BufTy).Contents (Elt Ideal))

theorem v5_apply (b : Fin 64) (j : Fin 512) :
    val_main_v5 (F := Ideal) x0 x3 (ix2 b j) = fmax (fun r => val_main_v4 (F := Ideal) x0 x3 (ix3 b r j)) :=
  hostMax_d1 _ b j

theorem v33_apply (b : Fin 64) (i : Fin 512) :
    val_main_v33 (F := Ideal) x1 x3 (ix2 b i) = fmax (fun c => val_main_v32 (F := Ideal) x1 x3 (ix3 b i c)) :=
  hostMax_d2 _ b i

theorem addi_zero (x : BitVec 32) : IntOp.addi x 0#32 = x := by simp [IntOp.addi]
theorem uitofp_ideal (b : BitVec 1) : FloatOps.uitofp (F := Ideal) .f32 b = ind b := rfl
theorem cmpf_ideal (p : CmpFPredicate) (x y : EReal) : FloatOps.cmpf (F := Ideal) (φ := .f32) p x y = Ideal.cmp p x y := rfl

set_option maxHeartbeats 2000000 in
/-- The reference's first result at (b, i) is the local contrastive loss of row i of batch b. -/
theorem ref_local (b : Fin 64) (i : Fin 512) :
    val_main_v58 (F := Ideal) x0 x1 x3 (ix2 b i)
      = localLoss (fun r k => val_main_v1 (F := Ideal) x0 x3 (ix3 b r k)) (fun r c => val_main_v21 (F := Ideal) x1 x3 (ix3 b r c)) i := by
  simp only [val_main_v2_apply, val_main_cst_apply, val_main_v3_apply, val_main_v4_apply, val_main_cst_0_apply, val_main_v6_apply, val_main_v7_apply, val_main_v8_apply, val_main_v22_apply, val_main_v23_apply, val_main_c_2_apply, val_main_v24_apply, val_main_v25_apply, val_main_v26_apply, val_main_v27_apply, val_main_cst_3_apply, val_main_v28_apply, val_main_v29_apply, val_main_cst_4_apply, val_main_v30_apply, val_main_v31_apply, val_main_cst_5_apply, val_main_call1_v0_apply, val_main_call1_v1_apply, val_main_v32_apply, val_main_cst_6_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_cst_7_apply, val_main_v47_apply, val_main_v48_apply, val_main_v49_apply, val_main_v50_apply, val_main_v51_apply, val_main_v52_apply, val_main_v53_apply, val_main_cst_8_apply, val_main_v54_apply, val_main_cst_9_apply, val_main_v55_apply, val_main_v56_apply, val_main_cst_10_apply, val_main_v57_apply, val_main_v58_apply]
  simp only [e54, e55, e47, e34, e6, el, er, ix2_snd, v5_apply, v33_apply, val_main_v4_apply, val_main_v2_apply, val_main_v3_apply, val_main_cst_apply,
    val_main_v32_apply, val_main_v31_apply, val_main_v30_apply, val_main_cst_4_apply, val_main_call1_v1_apply, val_main_call1_v0_apply, val_main_cst_5_apply, el, er]
  simp only [localLoss, loss, logProb, posMask, masked, selfBit, offDiag, eyeBit, shiftCols, logit, gram, one, negOne,
    Ideal.mulf_def, Ideal.hostDivf_def, Ideal.addf_def, Ideal.subf_def, Ideal.ofBits_def, Ideal.hostUnary_log_def, Ideal.hostUnary_exp_def,
    uitofp_ideal, cmpf_ideal, addi_zero, div_temp, ofBits_negInf, Ideal.ofBits_zero_f32, zero_add]

end Cert.ReferenceIdeal.RLocal

end
-- ==== Proof.RGlobal.lean ====
/-
  The reference's global loss, read at an index on the extended reals.

  The features are pooled by a maximum over the sequence axis; the 64 pooled rows (512 entries each) are multiplied with
  their transpose, and the contrastive loss is taken over the 64 × 64 logits, normalised over their second axis, against
  the table looked up from the labels. Every stage of the run is read at an index from the stage before it: the result at
  i is the global contrastive loss of pooled row i.
-/
import proofs.«142398_j2241972929072_2_alg».proof.Proof.RefReadP
import proofs.«142398_j2241972929072_2_alg».proof.Proof.Spec

noncomputable section

open scoped BigOperators

namespace Cert.ReferenceIdeal.RGlobal

open Cert.ReferenceIdeal Cert.ReferenceIdeal.Gen Cert.ReferenceIdeal.ReadP Idealize.ShloMosaic Idealize.ShloMosaic.ValueIdx Cert.Contrast

/-! ## The composed index maps of the stages, by coordinates -/

theorem e109 (i k : Fin 64) : idx_main_v109 (ix1 i) k = ix2 i k := funext fun a => Fin.ext (by match a with | ⟨0, _⟩ => rfl | ⟨1, _⟩ => rfl)
theorem e110 (i k : Fin 64) : idx_main_v110 (ix1 i) k = ix2 i k := funext fun a => Fin.ext (by match a with | ⟨0, _⟩ => rfl | ⟨1, _⟩ => rfl)
theorem e102 (i k k1 : Fin 64) : idx_main_v102 (idx_main_v103 (idx_main_v105 (ix2 i k))) k1 = ix2 i k1 := funext fun a => Fin.ext (by match a with | ⟨0, _⟩ => rfl | ⟨1, _⟩ => rfl)
theorem e93 (i k : Fin 64) : idx_main_v93 (idx_main_v94 (ix2 i k)) = ix1 i := funext fun a => Fin.ext (by match a with | ⟨0, _⟩ => rfl)
theorem e65 (i k : Fin 64) : idx_main_v65 (idx_main_v66 (ix2 i k)) = ix1 i := funext fun a => Fin.ext (by match a with | ⟨0, _⟩ => rfl)
theorem el (i k : Fin 64) (x : Fin 512) : lidx_main_v61 (ix2 i k) x = ix2 i x := funext fun a => Fin.ext (by match a with | ⟨0, _⟩ => rfl | ⟨1, _⟩ => rfl)
theorem er (i k : Fin 64) (x : Fin 512) : idx_main_v60 (ridx_main_v61 (ix2 i k) x) = ix2 k x := funext fun a => Fin.ext (by match a with | ⟨0, _⟩ => rfl | ⟨1, _⟩ => rfl)
theorem ix1_fst (i : Fin 64) : (ix1 i : (⟨1, ![64]⟩ : Shape).Idx) 0 = i := rfl

/-! ## The two maxima -/

theorem lift_r (h : S64x64.Reduces [1] S64) (i c : Fin 64) : h.lift (ix1 i) c = ix2 i c := funext fun a => Fin.ext (by match a with | ⟨0, _⟩ => rfl | ⟨1, _⟩ => rfl)

/-- The maximum over the columns of a 64 × 64 matrix: at i the fold of max over row i. -/
theorem hostMax_r (y : S64x64.Idx → EReal) (i : Fin 64) :
    Host.reduce FloatOps.maximumf y (constant (F := Ideal) S_ .f32 0xFF800000#32) reducesTo_S64x64_S64_d1 h_S_ (ix1 i)
      = fmax (fun c => y (ix2 i c)) := by
  have h : S64x64.Reduces [1] S64 := by decide
  have e0 : (constant (F := Ideal) S_ .f32 0xFF800000#32) (Shape.Idx.first h_S_) = (⊥ : EReal) := ofBits_negInf
  rw [Host.reduce_eq_fold_single FloatOps.maximumf y (constant (F := Ideal) S_ .f32 0xFF800000#32) reducesTo_S64x64_S64_d1 h h_S_ (ix1 i), e0]
  exact Finset.fold_congr fun c _ => congrArg y (lift_r h i c)

variable (x0 : (⟨S64x1536x512, .f32⟩ : BufTy).Contents (Elt Ideal)) (x1 : (⟨S5000, .f32⟩ : BufTy).Contents (Elt Ideal))
  (x2 : (⟨S64, .i32⟩ : BufTy).Contents (Elt Ideal))

theorem v64_apply (i : Fin 64) :
    val_main_v64 (F := Ideal) x0 (ix1 i) = fmax (fun c => val_main_v63 (F := Ideal) x0 (ix2 i c)) :=
  hostMax_r _ i

theorem v92_apply (i : Fin 64) :
    val_main_v92 (F := Ideal) x1 x2 (ix1 i) = fmax (fun c => val_main_v91 (F := Ideal) x1 x2 (ix2 i c)) :=
  hostMax_r _ i

theorem addi_zero (x : BitVec 32) : IntOp.addi x 0#32 = x := by simp [IntOp.addi]
theorem uitofp_ideal (b : BitVec 1) : FloatOps.uitofp (F := Ideal) .f32 b = ind b := rfl
theorem cmpf_ideal (p : CmpFPredicate) (x y : EReal) : FloatOps.cmpf (F := Ideal) (φ := .f32) p x y = Ideal.cmp p x y := rfl

set_option maxHeartbeats 2000000 in
/-- The reference's second result at i is the global contrastive loss of pooled row i. -/
theorem ref_global (i : Fin 64) :
    val_main_v113 (F := Ideal) x0 x1 x2 (ix1 i)
      = globalLoss (fun r k => val_main_v59 (F := Ideal) x0 (ix2 r k)) (fun r c => val_main_v80 (F := Ideal) x1 x2 (ix2 r c)) i := by
  simp only [val_main_cst_11_apply, val_main_v60_apply, val_main_v61_apply, val_main_cst_12_apply, val_main_v62_apply, val_main_v63_apply, val_main_cst_13_apply, val_main_v65_apply, val_main_v66_apply, val_main_v67_apply, val_main_v81_apply, val_main_v82_apply, val_main_c_16_apply, val_main_v83_apply, val_main_v84_apply, val_main_v85_apply, val_main_v86_apply, val_main_cst_17_apply, val_main_v87_apply, val_main_v88_apply, val_main_cst_18_apply, val_main_v89_apply, val_main_v90_apply, val_main_cst_19_apply, val_main_call2_v0_apply, val_main_call2_v1_apply, val_main_v91_apply, val_main_cst_20_apply, val_main_v93_apply, val_main_v94_apply, val_main_v95_apply, val_main_v96_apply, val_main_v97_apply, val_main_v98_apply, val_main_v99_apply, val_main_v100_apply, val_main_v101_apply, val_main_cst_21_apply, val_main_v102_apply, val_main_v103_apply, val_main_v104_apply, val_main_v105_apply, val_main_v106_apply, val_main_v107_apply, val_main_v108_apply, val_main_cst_22_apply, val_main_v109_apply, val_main_cst_23_apply, val_main_v110_apply, val_main_v111_apply, val_main_cst_24_apply, val_main_v112_apply, val_main_v113_apply]
  simp only [e109, e110, e102, e93, e65, el, er, ix1_fst, v64_apply, v92_apply, val_main_v63_apply, val_main_v61_apply, val_main_v60_apply, val_main_v62_apply, val_main_cst_12_apply,
    val_main_v91_apply, val_main_v90_apply, val_main_v89_apply, val_main_cst_18_apply, val_main_call2_v1_apply, val_main_call2_v0_apply, val_main_cst_19_apply, el, er]
  simp only [globalLoss, loss, logProb, posMask, masked, selfBit, offDiag, eyeBit, shiftRows, logit, gram, one, negOne,
    Ideal.mulf_def, Ideal.hostDivf_def, Ideal.addf_def, Ideal.subf_def, Ideal.ofBits_def, Ideal.hostUnary_log_def, Ideal.hostUnary_exp_def,
    uitofp_ideal, cmpf_ideal, addi_zero, div_temp, ofBits_negInf, Ideal.ofBits_zero_f32, zero_add]

end Cert.ReferenceIdeal.RGlobal

end
-- ==== Proof.Bridge.lean ====
/-
  The reference's two results, as whole arrays, in the form the kernel program's results were read in: the first result is
  the array of local losses of the selected rows against the local table, the second the array of global losses of the pooled
  rows against the global table — each index by index what the reference modules read.
-/
import proofs.«142398_j2241972929072_2_alg».proof.Proof.KChain
import proofs.«142398_j2241972929072_2_alg».proof.Proof.RLocal
import proofs.«142398_j2241972929072_2_alg».proof.Proof.RGlobal

noncomputable section

namespace Cert.Bridge

open Cert.ReferenceIdeal Cert.ReferenceIdeal.ReadP Idealize.ShloMosaic Idealize.ShloMosaic.ValueIdx Cert.Contrast

theorem ref_local_arr (x0 : (⟨S64x1536x512, .f32⟩ : BufTy).Contents (Elt Ideal)) (x1 : (⟨S5000, .f32⟩ : BufTy).Contents (Elt Ideal))
    (x3 : (⟨S64x512, .i32⟩ : BufTy).Contents (Elt Ideal)) :
    val_main_v58 (F := Ideal) x0 x1 x3
      = Cert.KernelIdeal.KChain.localOut (val_main_v1 (F := Ideal) x0 x3) (val_main_v21 (F := Ideal) x1 x3) := by
  funext j
  obtain ⟨b, a, rfl⟩ : ∃ (b : Fin 64) (a : Fin 512), j = ix2 b a := ⟨j 0, j 1, eq_ix2 j⟩
  rw [Cert.ReferenceIdeal.RLocal.ref_local]
  rfl

theorem ref_global_arr (x0 : (⟨S64x1536x512, .f32⟩ : BufTy).Contents (Elt Ideal)) (x1 : (⟨S5000, .f32⟩ : BufTy).Contents (Elt Ideal))
    (x2 : (⟨S64, .i32⟩ : BufTy).Contents (Elt Ideal)) :
    val_main_v113 (F := Ideal) x0 x1 x2
      = Cert.KernelIdeal.KValue.globalArr (val_main_v59 (F := Ideal) x0) (val_main_v80 (F := Ideal) x1 x2) := by
  funext j
  obtain ⟨a, rfl⟩ : ∃ a : Fin 64, j = ix1 a := ⟨j 0, eq_ix1 j⟩
  rw [Cert.ReferenceIdeal.RGlobal.ref_global]
  rfl

end Cert.Bridge

end
-- ==== Proof.lean ====
/-
  The certificate of the contrastive loss (local and global) kernel program against its reference.

  Both programs compute, from the features, the table of autocorrelation values, the labels and the selected positions:
  the contrastive loss of every selected row of every batch against the table at the lags between the selected positions (the
  local loss), and the contrastive loss of every batch's pooled features against the table at the lags between the labels (the
  global loss). The kernel program selects the rows and looks the tables up on the host exactly as the reference does, then
  runs three regions: a pooling, the local loss one batch per grid point, the global loss in one point. Its scale 1 / τ is a
  folded reciprocal, named as the exact reciprocal of the reference's temperature word; its mask fill is named −∞. On the
  extended reals the product with 1 / τ is the quotient by τ on every value, a change of float format is the identity, and
  the sums, maxima and matrix products of the two programs are the same sums, maxima and inner products: the two results
  are equal element by element, whatever the (finite or infinite) entries are — the precondition is not used.

  The frames of the two kernel programs are the generated frame certificates; the reference's frame is its run with the
  results dropped. The four named constants of the idealization are the ledger's four entries.
-/
import proofs.«142398_j2241972929072_2_alg».proof.Defs
import proofs.«142398_j2241972929072_2_alg».proof.Proof.Gen.Kernel
import proofs.«142398_j2241972929072_2_alg».proof.Proof.Gen.Kernel.Skeleton
import proofs.«142398_j2241972929072_2_alg».proof.Proof.Gen.Kernel.Launch
import proofs.«142398_j2241972929072_2_alg».proof.Proof.Gen.Kernel.Points
import proofs.«142398_j2241972929072_2_alg».proof.Proof.Gen.Kernel.Frame
import proofs.«142398_j2241972929072_2_alg».proof.Proof.Gen.KernelIdeal
import proofs.«142398_j2241972929072_2_alg».proof.Proof.Gen.KernelIdeal.Skeleton
import proofs.«142398_j2241972929072_2_alg».proof.Proof.Gen.KernelIdeal.Launch
import proofs.«142398_j2241972929072_2_alg».proof.Proof.Gen.KernelIdeal.Points
import proofs.«142398_j2241972929072_2_alg».proof.Proof.Gen.KernelIdeal.Frame
import proofs.«142398_j2241972929072_2_alg».proof.Proof.Gen.ReferenceIdeal
import proofs.«142398_j2241972929072_2_alg».proof.Proof.Gen.Pre_finite_inputs
import proofs.«142398_j2241972929072_2_alg».proof.Proof.KernelRun
import proofs.«142398_j2241972929072_2_alg».proof.Proof.KChain
import proofs.«142398_j2241972929072_2_alg».proof.Proof.Bridge
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The ledger's four entries: the scale is the exact reciprocal of the temperature, the mask fill is −∞, in both loss kernels. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl,
   IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl⟩

/-- Both runs end with the array of local losses and the array of global losses of the same arguments. -/
theorem algebraic : Cert.algebraic_KernelIdeal_ReferenceIdeal := by
  intro m ρ m' ρ' _ hagree
  refine ⟨fun c => Cert.KernelIdeal.KChain.localOut
      (Cert.ReferenceIdeal.ReadP.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (Cert.ReferenceIdeal.ReadP.val_main_v21 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3))),
    fun c => Cert.KernelIdeal.KValue.globalArr
      (Cert.ReferenceIdeal.ReadP.val_main_v59 (F := Ideal) (m ((c.tc : Thread Cert.KernelIdeal.nD Cert.KernelIdeal.τ).loc Cert.KernelIdeal.main_arg0)))
      (Cert.ReferenceIdeal.ReadP.val_main_v80 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · exact Cert.KernelIdeal.KRun.run_final m ρ (fun s h c =>
      ⟨(h c _ (Cert.KernelIdeal.Gen.mem_uc Cert.KernelIdeal.main_v31 (by decide))).trans (Cert.KernelIdeal.KChain.out_local m ρ c),
       (h c _ (Cert.KernelIdeal.Gen.mem_uc Cert.KernelIdeal.main_v32 (by decide))).trans (Cert.KernelIdeal.KChain.out_global m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c)⟩)
  · refine (θ_run Cert.ReferenceIdeal.defs _ _).mono (fun r h c => ⟨?_, ?_, (h c).2.2⟩)
      (Cert.ReferenceIdeal.ValueP.run (F := Ideal) m' ρ')
    · refine (h c).1.trans ((Cert.ReferenceIdeal.ReadP.val_main_v58_eq m' c).trans ((Cert.Bridge.ref_local_arr _ _ _).trans ?_))
      rw [(hagree c).1, (hagree c).2.1, (hagree c).2.2.2]
    · refine (h c).2.1.trans ((Cert.ReferenceIdeal.ReadP.val_main_v113_eq m' c).trans ((Cert.Bridge.ref_global_arr _ _ _).trans ?_))
      rw [(hagree c).1, (hagree c).2.1, (hagree c).2.2.1]

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
